-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S10000x16 : S_.BroadcastsInDim S10000x16 (![] : Fin 0 → Fin S10000x16.rank)
  reducesTo_S10000x16_S_d0_1 : S10000x16.ReducesTo [0, 1] S_

variable [Facts]

def fn_part1 {F : FTy → Type} [FloatOps F] (main_arg4 : FVec F S128x16 .f32) (main_arg5 : FVec F S16 .f32) (main_arg6 : FVec F S10000x16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S128x16 .f32 := Host.absf main_arg4
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S10000x16 .f32 := Host.absf main_arg6
  let main_cst_10 : FVec F S_ .f32 := constant S_ .f32 0x7F800000#32
  let main_v30 : FVec F S10000x16 .f32 := broadcastInDim S10000x16 ![] bcast_S_S10000x16 main_cst_10
  let main_v31 : IVec S10000x16 1 := cmpf .olt main_v29 main_v30
  let main_c_11 : IVec S_ 1 := constantI S_ 1 1#1
  let main_v32 : IVec S_ 1 := (fun x v => Host.reduce IntOp.andi x v reducesTo_S10000x16_S_d0_1 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S128x16 .f32) (main_arg3 : FVec F S16 .f32) (main_arg4 : FVec F S128x16 .f32) (main_arg5 : FVec F S16 .f32) (main_arg6 : FVec F S10000x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S128x32 : Shape := ⟨2, ![128, 32]⟩
abbrev S32 : Shape := ⟨1, ![32]⟩
abbrev S32x1 : Shape := ⟨2, ![32, 1]⟩
abbrev S16x10000 : Shape := ⟨2, ![16, 10000]⟩
abbrev S256x10000 : Shape := ⟨2, ![256, 10000]⟩
abbrev S16x256 : Shape := ⟨2, ![16, 256]⟩
abbrev S10000x32 : Shape := ⟨2, ![10000, 32]⟩
abbrev S32x256 : Shape := ⟨2, ![32, 256]⟩

abbrev nBuf : Space → Nat
  | .hbm => 17
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S128x16, .f32⟩
  | .hbm, ⟨5, _⟩ => ⟨S16, .f32⟩
  | .hbm, ⟨6, _⟩ => ⟨S10000x16, .f32⟩
  | .hbm, ⟨7, _⟩ => ⟨S128x32, .f32⟩
  | .hbm, ⟨8, _⟩ => ⟨S32, .f32⟩
  | .hbm, ⟨9, _⟩ => ⟨S32x1, .f32⟩
  | .hbm, ⟨10, _⟩ => ⟨S16x10000, .f32⟩
  | .hbm, ⟨11, _⟩ => ⟨S16x10000, .f32⟩
  | .hbm, ⟨12, _⟩ => ⟨S16x10000, .f32⟩
  | .hbm, ⟨13, _⟩ => ⟨S16x10000, .f32⟩
  | .hbm, ⟨14, _⟩ => ⟨S10000x16, .f32⟩
  | .hbm, ⟨15, _⟩ => ⟨S10000x16, .f32⟩
  | .hbm, ⟨16, _⟩ => ⟨S10000x16, .f32⟩
  | .local _ .vmem, ⟨0, _⟩ => ⟨S256x10000, .f32⟩
  | .local _ .vmem, ⟨1, _⟩ => ⟨S256x10000, .f32⟩
  | .local _ .vmem, ⟨2, _⟩ => ⟨S10000x128, .f32⟩
  | .local _ .vmem, ⟨3, _⟩ => ⟨S128x32, .f32⟩
  | .local _ .vmem, ⟨4, _⟩ => ⟨S32x1, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x16_S128x16_S128x32_d1 : Shape.Concatenates [S128x16, S128x16] S128x32 1
  concatenates_S16_S16_S32_d0 : Shape.Concatenates [S16, S16] S32 0
  shapeCasts_S32_S32x1 : S32.ShapeCasts S32x1
  transposes_S10000x16_S16x10000_1_0 : S10000x16.Transposes [1, 0] S16x10000
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S256x10000_S256x10000_0_0 : ∀ a, (![0, 0] : Fin 2 → Nat) a + S256x10000.size a ≤ S256x10000.size a
  h_S256x10000 : 0 < S256x10000.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x256 : S32x1.Broadcasts S32x256
  slices_S32x256_o0_0_S16x256 : S32x256.Slices ![0, 0] S16x256
  slices_S32x256_o16_0_S16x256 : S32x256.Slices ![16, 0] S16x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  transposes_S16x10000_S10000x16_1_0 : S16x10000.Transposes [1, 0] S10000x16
  dot_S10000x128_S128x32_S10000x32_1_0_0_1_n_n_wf : DotDims.WF S10000x128 S128x32 S10000x32 [1] [0] [0] [1] [] []
  dot_S10000x32_S256x10000_S32x256_0_1_1_0_n_n_wf : DotDims.WF S10000x32 S256x10000 S32x256 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x10000.size a < S10000x10000.size a
  hwx0_0 : ∀ i : grid0.Coords, EltTy.bits .f32 = 32 ∨ (Rect.unit (s := S10000x10000) (fun a => cc0_transform_0 i a * S256x10000.size a) (fun a => (Pipeline.Clip.of (cc0_transform_0 i a) (S256x10000.size a) (S10000x10000.size a)).extent (S256x10000.size a)) fun a => Pipeline.Clip.inb (Pipeline.Clip.ok_of (hstart0_0 i a))).WholeWords (EltTy.packing .f32)
  hwxs0_0 : ∀ i : grid0.Coords, EltTy.bits .f32 = 32 ∨ (Rect.unit (s := S256x10000) (fun _ => 0) (fun a => (Pipeline.Clip.of (cc0_transform_0 i a) (S256x10000.size a) (S10000x10000.size a)).extent (S256x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S16x256.size a < S16x10000.size a
  hwx0_4 : ∀ i : grid0.Coords, EltTy.bits .f32 = 32 ∨ (Rect.unit (s := S16x10000) (fun a => cc0_transform_4 i a * S16x256.size a) (fun a => (Pipeline.Clip.of (cc0_transform_4 i a) (S16x256.size a) (S16x10000.size a)).extent (S16x256.size a)) fun a => Pipeline.Clip.inb (Pipeline.Clip.ok_of (hstart0_4 i a))).WholeWords (EltTy.packing .f32)
  hwxs0_4 : ∀ i : grid0.Coords, EltTy.bits .f32 = 32 ∨ (Rect.unit (s := S16x256) (fun _ => 0) (fun a => (Pipeline.Clip.of (cc0_transform_4 i a) (S16x256.size a) (S16x10000.size a)).extent (S16x256.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S16x256.size a < S16x10000.size a
  hwx0_5 : ∀ i : grid0.Coords, EltTy.bits .f32 = 32 ∨ (Rect.unit (s := S16x10000) (fun a => cc0_transform_5 i a * S16x256.size a) (fun a => (Pipeline.Clip.of (cc0_transform_5 i a) (S16x256.size a) (S16x10000.size a)).extent (S16x256.size a)) fun a => Pipeline.Clip.inb (Pipeline.Clip.ok_of (hstart0_5 i a))).WholeWords (EltTy.packing .f32)
  hwxs0_5 : ∀ i : grid0.Coords, EltTy.bits .f32 = 32 ∨ (Rect.unit (s := S16x256) (fun _ => 0) (fun a => (Pipeline.Clip.of (cc0_transform_5 i a) (S16x256.size a) (S16x10000.size a)).extent (S16x256.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S16x256.size a < S16x10000.size a
  hwx0_6 : ∀ i : grid0.Coords, EltTy.bits .f32 = 32 ∨ (Rect.unit (s := S16x10000) (fun a => cc0_transform_6 i a * S16x256.size a) (fun a => (Pipeline.Clip.of (cc0_transform_6 i a) (S16x256.size a) (S16x10000.size a)).extent (S16x256.size a)) fun a => Pipeline.Clip.inb (Pipeline.Clip.ok_of (hstart0_6 i a))).WholeWords (EltTy.packing .f32)
  hwxs0_6 : ∀ i : grid0.Coords, EltTy.bits .f32 = 32 ∨ (Rect.unit (s := S16x256) (fun _ => 0) (fun a => (Pipeline.Clip.of (cc0_transform_6 i a) (S16x256.size a) (S16x10000.size a)).extent (S16x256.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S16x256.size a < S16x10000.size a
  hwx0_7 : ∀ i : grid0.Coords, EltTy.bits .f32 = 32 ∨ (Rect.unit (s := S16x10000) (fun a => cc0_transform_7 i a * S16x256.size a) (fun a => (Pipeline.Clip.of (cc0_transform_7 i a) (S16x256.size a) (S16x10000.size a)).extent (S16x256.size a)) fun a => Pipeline.Clip.inb (Pipeline.Clip.ok_of (hstart0_7 i a))).WholeWords (EltTy.packing .f32)
  hwxs0_7 : ∀ i : grid0.Coords, EltTy.bits .f32 = 32 ∨ (Rect.unit (s := S16x256) (fun _ => 0) (fun a => (Pipeline.Clip.of (cc0_transform_7 i a) (S16x256.size a) (S16x10000.size a)).extent (S16x256.size a)) fun a => (Nat.zero_add _).trans_le (Pipeline.Clip.extent_le (Pipeline.Clip.ok_of (hstart0_7 i a)))).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S256x10000_S32x256_0_1_1_0_n_n : DotDims S10000x32 S256x10000 S32x256 where
  lhsContracting := [0]
  rhsContracting := [1]
  lhsNonContracting := [1]
  rhsNonContracting := [0]
  lhsBatch := []
  rhsBatch := []
  wf := dot_S10000x32_S256x10000_S32x256_0_1_1_0_n_n_wf

abbrev win0_0 : Pipeline.Window sig grid0 :=
  Pipeline.Window.ofSpecClip (Memref.whole main_arg1) S256x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v3) S16x256.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v4_0) S16x256.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v4_1) S16x256.size cc0_transform_6 reads0_6 true false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v4_2) S16x256.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S128x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S10000x16, .f32⟩
  | .hbm, ⟨9, _⟩ => ⟨S1x16, .f32⟩
  | .hbm, ⟨10, _⟩ => ⟨S10000x16, .f32⟩
  | .hbm, ⟨11, _⟩ => ⟨S10000x16, .f32⟩
  | .hbm, ⟨12, _⟩ => ⟨S_, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S1x16, .f32⟩
  | .hbm, ⟨18, _⟩ => ⟨S10000x16, .f32⟩
  | .hbm, ⟨19, _⟩ => ⟨S10000x16, .f32⟩
  | .hbm, ⟨20, _⟩ => ⟨S_, .f32⟩
  | .hbm, ⟨21, _⟩ => ⟨S10000x16, .f32⟩
  | .hbm, ⟨22, _⟩ => ⟨S10000x16, .f32⟩
  | .hbm, ⟨23, _⟩ => ⟨S10000x16, .f32⟩
  | .hbm, ⟨24, _⟩ => ⟨S10000x16, .f32⟩
  | .hbm, ⟨25, _⟩ => ⟨S10000x16, .f32⟩
  | .hbm, ⟨26, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.BitsRun.lean ====
/-
  The kernel body as a Hoare triple on arbitrary buffer contents, at any float instance.

  The body has one branch: at the first grid point it fills the scratch with the product of the
  feature block and the weight block; at every point it then reads the scratch H, the adjacency
  block A, the bias column b and the noise block e, and stores three blocks, each a pure function
  (a named payload) of (H, A, b) or (H, A, b, e).  Both triples say: the five input buffers are left
  as found, the three output buffers end at their payloads, and the scratch ends at H, where H is
  the freshly computed product at the first point and the scratch's own contents afterwards.
-/
import proofs.«158584_g73332271612656_cont_9to1c4b_773_29_alg».proof.Proof.Gen.Kernel.Frame
import Idealize.ShloMosaic.Lib.Pipeline.FrameBody
import Idealize.ShloMosaic.Lib.Pipeline.FrameSuffix
import Idealize.ShloMosaic.Lib.Tactic
import proofs.«158584_g73332271612656_cont_9to1c4b_773_29_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The scratch operand: a whole buffer of the kernel's own. -/
abbrev scM : Memref sig .tc .vmem S10000x32 .f32 := Memref.whole cc0_scratch0

/-- The body's one branch condition ("this is the first grid point"), from the grid coordinate. -/
abbrev cond0 (i : grid0.Coords) : Prop :=
  (Scalar.cmpi .ne (Scalar.extui (Scalar.cmpi .eq (BitVec.ofNat 32 (i 0).val) 0#32)) 0#32) = 1#1

/-- It holds exactly at point 0, decided over the forty points. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- At the first point: the scratch is overwritten by the product of the feature and weight buffers' contents, and the three outputs are the payloads of that product. -/
theorem run_first (c : Dev nD) (i : grid0.Coords) (hc : cond0 i)
    (a1 : Memref sig .tc .vmem S256x10000 .f32) (h1 : a1.IsWhole) (a2 : Memref sig .tc .vmem S10000x128 .f32) (h2 : a2.IsWhole)
    (a3 : Memref sig .tc .vmem S128x32 .f32) (h3 : a3.IsWhole) (a4 : Memref sig .tc .vmem S32x1 .f32) (h4 : a4.IsWhole)
    (a5 : Memref sig .tc .vmem S16x256 .f32) (h5 : a5.IsWhole) (a6 : Memref sig .tc .vmem S16x256 .f32) (h6 : a6.IsWhole)
    (a7 : Memref sig .tc .vmem S16x256 .f32) (h7 : a7.IsWhole) (a8 : Memref sig .tc .vmem S16x256 .f32) (h8 : a8.IsWhole)
    (Y0 : Vec F S256x10000 .f32) (Y1 : Vec F S10000x128 .f32) (Y2 : Vec F S128x32 .f32) (Y3 : Vec F S32x1 .f32)
    (Y4 Y5 Y6 Y7 : Vec F S16x256 .f32) (S : Vec F S10000x32 .f32) (E : Set ℕ) (K : PUnit → sProp 𝕄) :
    iprop(owns (c : Thread nD τ) a1 fullShare Y0 ∗ owns (c : Thread nD τ) a2 fullShare Y1 ∗ owns (c : Thread nD τ) a3 fullShare Y2 ∗ owns (c : Thread nD τ) a4 fullShare Y3 ∗ owns (c : Thread nD τ) a5 fullShare Y4 ∗ owns (c : Thread nD τ) a6 fullShare Y5 ∗ owns (c : Thread nD τ) a7 fullShare Y6 ∗ owns (c : Thread nD τ) a8 fullShare Y7 ∗ owns (c : Thread nD τ) scM fullShare S
        ∗ (iprop(owns (c : Thread nD τ) a1 fullShare Y0 ∗ owns (c : Thread nD τ) a2 fullShare Y1 ∗ owns (c : Thread nD τ) a3 fullShare Y2 ∗ owns (c : Thread nD τ) a4 fullShare Y3 ∗ owns (c : Thread nD τ) a5 fullShare Y4 ∗ owns (c : Thread nD τ) a6 fullShare (k0_pay5 (k0_pay1 Y1 Y2) Y0 Y3 Y4) ∗ owns (c : Thread nD τ) a7 fullShare (k0_pay3 (k0_pay1 Y1 Y2) Y0 Y3) ∗ owns (c : Thread nD τ) a8 fullShare (k0_pay4 (k0_pay1 Y1 Y2) Y0 Y3) ∗ owns (c : Thread nD τ) scM fullShare (k0_pay1 Y1 Y2)) -∗ K ⟨⟩))
      ⊢ wp frame (wpE (defs₀ (F := F)) Variants.none c none) E
          (cc0__gcn_kernel i a1 h1 a2 h2 a3 h3 a4 h4 a5 h5 a6 h6 a7 h7 a8 h8 scM (Memref.isWhole_whole _)) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := h1.eq_unread hf0; obtain rfl := h2.eq_unread hf1; obtain rfl := h3.eq_unread hf2; obtain rfl := h4.eq_unread hf3
  obtain rfl := h5.eq_unread hf4; obtain rfl := h6.eq_unread hf5; obtain rfl := h7.eq_unread hf6; obtain rfl := h8.eq_unread hf7
  obtain rfl := (Memref.isWhole_whole (cc0_scratch0 : Ref sig .tc)).eq_unread hfs
  sl_exec (disch := exact hc)
  sl_step
  iapply Hk
  have hz : (![0, 0] : Fin 2 → Nat) = fun _ => 0 := funext fun a => by fin_cases a <;> rfl
  have l0 : ∀ X : Vec F S256x10000 .f32, View.ld X (Rect.unit ![0, 0] S256x10000.size inb_S256x10000_S256x10000_0_0) = X :=
    fun X => View.ld_unit_zero (S := S256x10000) hz inb_S256x10000_S256x10000_0_0 X
  have l1 : ∀ X : Vec F S10000x128 .f32, View.ld X (Rect.unit ![0, 0] S10000x128.size inb_S10000x128_S10000x128_0_0) = X :=
    fun X => View.ld_unit_zero (S := S10000x128) hz inb_S10000x128_S10000x128_0_0 X
  have l2 : ∀ X : Vec F S128x32 .f32, View.ld X (Rect.unit ![0, 0] S128x32.size inb_S128x32_S128x32_0_0) = X :=
    fun X => View.ld_unit_zero (S := S128x32) hz inb_S128x32_S128x32_0_0 X
  have l3 : ∀ X : Vec F S32x1 .f32, View.ld X (Rect.unit ![0, 0] S32x1.size inb_S32x1_S32x1_0_0) = X :=
    fun X => View.ld_unit_zero (S := S32x1) hz inb_S32x1_S32x1_0_0 X
  have l4 : ∀ X : Vec F S16x256 .f32, View.ld X (Rect.unit ![0, 0] S16x256.size inb_S16x256_S16x256_0_0) = X :=
    fun X => View.ld_unit_zero (S := S16x256) hz inb_S16x256_S16x256_0_0 X
  have lS : ∀ X : Vec F S10000x32 .f32, View.ld X (Rect.unit ![0, 0] S10000x32.size inb_S10000x32_S10000x32_0_0) = X :=
    fun X => View.ld_unit_zero (S := S10000x32) hz inb_S10000x32_S10000x32_0_0 X
  have rc : ∀ w : Vec F S10000x32 .f32, scM.view.readCov [(⟨Rect.unit ![0, 0] S10000x32.size inb_S10000x32_S10000x32_0_0, w⟩ : View.Piece (Elt F) S10000x32 .f32)]
      (Rect.unit ![0, 0] S10000x32.size inb_S10000x32_S10000x32_0_0).toLoadRect = w :=
    fun w => View.readCov_unit_zero (S := S10000x32) scM.view hz inb_S10000x32_S10000x32_0_0 w
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr
    swap; · iexact H5
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  isplitl [H6]
  · iexists _; isplitr
    swap; · iexact H6
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  isplitl [H7]
  · iexists _; isplitr
    swap; · iexact H7
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  · iexists _; isplitr
    swap; · iexact HS
    ipureintro
    sl_unfold_words
    rw [View.read_writes_eq_canon _ _ _ (fun y => View.cover_of_tiledL _ S10000x32.size (by sl_kernel_rfl) y), View.canon_unit_zero hz]
    simp only [View.readAt_eq_ld, Memref.IsWhole.read_unread, l0, l1, l2, l3, l4, lS]

set_option maxHeartbeats 1000000 in
/-- At a later point: the scratch is only read, and the three outputs are the payloads of what it holds. -/
theorem run_later (c : Dev nD) (i : grid0.Coords) (hc : ¬cond0 i)
    (a1 : Memref sig .tc .vmem S256x10000 .f32) (h1 : a1.IsWhole) (a2 : Memref sig .tc .vmem S10000x128 .f32) (h2 : a2.IsWhole)
    (a3 : Memref sig .tc .vmem S128x32 .f32) (h3 : a3.IsWhole) (a4 : Memref sig .tc .vmem S32x1 .f32) (h4 : a4.IsWhole)
    (a5 : Memref sig .tc .vmem S16x256 .f32) (h5 : a5.IsWhole) (a6 : Memref sig .tc .vmem S16x256 .f32) (h6 : a6.IsWhole)
    (a7 : Memref sig .tc .vmem S16x256 .f32) (h7 : a7.IsWhole) (a8 : Memref sig .tc .vmem S16x256 .f32) (h8 : a8.IsWhole)
    (Y0 : Vec F S256x10000 .f32) (Y1 : Vec F S10000x128 .f32) (Y2 : Vec F S128x32 .f32) (Y3 : Vec F S32x1 .f32)
    (Y4 Y5 Y6 Y7 : Vec F S16x256 .f32) (S : Vec F S10000x32 .f32) (E : Set ℕ) (K : PUnit → sProp 𝕄) :
    iprop(owns (c : Thread nD τ) a1 fullShare Y0 ∗ owns (c : Thread nD τ) a2 fullShare Y1 ∗ owns (c : Thread nD τ) a3 fullShare Y2 ∗ owns (c : Thread nD τ) a4 fullShare Y3 ∗ owns (c : Thread nD τ) a5 fullShare Y4 ∗ owns (c : Thread nD τ) a6 fullShare Y5 ∗ owns (c : Thread nD τ) a7 fullShare Y6 ∗ owns (c : Thread nD τ) a8 fullShare Y7 ∗ owns (c : Thread nD τ) scM fullShare S
        ∗ (iprop(owns (c : Thread nD τ) a1 fullShare Y0 ∗ owns (c : Thread nD τ) a2 fullShare Y1 ∗ owns (c : Thread nD τ) a3 fullShare Y2 ∗ owns (c : Thread nD τ) a4 fullShare Y3 ∗ owns (c : Thread nD τ) a5 fullShare Y4 ∗ owns (c : Thread nD τ) a6 fullShare (k0_pay5 S Y0 Y3 Y4) ∗ owns (c : Thread nD τ) a7 fullShare (k0_pay3 S Y0 Y3) ∗ owns (c : Thread nD τ) a8 fullShare (k0_pay4 S Y0 Y3) ∗ owns (c : Thread nD τ) scM fullShare S) -∗ K ⟨⟩))
      ⊢ wp frame (wpE (defs₀ (F := F)) Variants.none c none) E
          (cc0__gcn_kernel i a1 h1 a2 h2 a3 h3 a4 h4 a5 h5 a6 h6 a7 h7 a8 h8 scM (Memref.isWhole_whole _)) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := h1.eq_unread hf0; obtain rfl := h2.eq_unread hf1; obtain rfl := h3.eq_unread hf2; obtain rfl := h4.eq_unread hf3
  obtain rfl := h5.eq_unread hf4; obtain rfl := h6.eq_unread hf5; obtain rfl := h7.eq_unread hf6; obtain rfl := h8.eq_unread hf7
  obtain rfl := (Memref.isWhole_whole (cc0_scratch0 : Ref sig .tc)).eq_unread hfs
  sl_exec (disch := exact hc)
  sl_step
  iapply Hk
  have hz : (![0, 0] : Fin 2 → Nat) = fun _ => 0 := funext fun a => by fin_cases a <;> rfl
  have l0 : ∀ X : Vec F S256x10000 .f32, View.ld X (Rect.unit ![0, 0] S256x10000.size inb_S256x10000_S256x10000_0_0) = X :=
    fun X => View.ld_unit_zero (S := S256x10000) hz inb_S256x10000_S256x10000_0_0 X
  have l1 : ∀ X : Vec F S10000x128 .f32, View.ld X (Rect.unit ![0, 0] S10000x128.size inb_S10000x128_S10000x128_0_0) = X :=
    fun X => View.ld_unit_zero (S := S10000x128) hz inb_S10000x128_S10000x128_0_0 X
  have l2 : ∀ X : Vec F S128x32 .f32, View.ld X (Rect.unit ![0, 0] S128x32.size inb_S128x32_S128x32_0_0) = X :=
    fun X => View.ld_unit_zero (S := S128x32) hz inb_S128x32_S128x32_0_0 X
  have l3 : ∀ X : Vec F S32x1 .f32, View.ld X (Rect.unit ![0, 0] S32x1.size inb_S32x1_S32x1_0_0) = X :=
    fun X => View.ld_unit_zero (S := S32x1) hz inb_S32x1_S32x1_0_0 X
  have l4 : ∀ X : Vec F S16x256 .f32, View.ld X (Rect.unit ![0, 0] S16x256.size inb_S16x256_S16x256_0_0) = X :=
    fun X => View.ld_unit_zero (S := S16x256) hz inb_S16x256_S16x256_0_0 X
  have lS : ∀ X : Vec F S10000x32 .f32, View.ld X (Rect.unit ![0, 0] S10000x32.size inb_S10000x32_S10000x32_0_0) = X :=
    fun X => View.ld_unit_zero (S := S10000x32) hz inb_S10000x32_S10000x32_0_0 X
  have rc : ∀ w : Vec F S10000x32 .f32, scM.view.readCov [(⟨Rect.unit ![0, 0] S10000x32.size inb_S10000x32_S10000x32_0_0, w⟩ : View.Piece (Elt F) S10000x32 .f32)]
      (Rect.unit ![0, 0] S10000x32.size inb_S10000x32_S10000x32_0_0).toLoadRect = w :=
    fun w => View.readCov_unit_zero (S := S10000x32) scM.view hz inb_S10000x32_S10000x32_0_0 w
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr
    swap; · iexact H5
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  isplitl [H6]
  · iexists _; isplitr
    swap; · iexact H6
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  isplitl [H7]
  · iexists _; isplitr
    swap; · iexact H7
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  · iexists _; isplitr
    swap; · iexact HS
    ipureintro
    exact (Memref.isWhole_whole (cc0_scratch0 : Ref sig .tc)).read_unread _

end Cert.Kernel.Body

end
-- ==== Proof.BitsData.lean ====
/-
  The proof data of the one pipelined region, and the body's step at a generic grid point.

  Windows: 0 is a 256-row block of the adjacency matrix (a new block at every point; the last block
  overhangs the matrix by 240 rows), 1 the whole feature matrix, 2 the whole weight matrix [W1|W2],
  3 the bias column, 4 a 256-column block of the transposed noise (overhanging by 240 columns at the
  last point), 5, 6, 7 the 256-column blocks of the three transposed results, written back at every
  point and cut at the arrays' end.  The scratch holds H = x·[W1|W2] from the first point on: that is
  the invariant carried from point to point.  What an overhanging buffer holds past the array's end
  is never named: it is the arbitrary filler d of `Window.fill`.
-/
import proofs.«158584_g73332271612656_cont_9to1c4b_773_29_alg».proof.Proof.BitsRun
import proofs.«158584_g73332271612656_cont_9to1c4b_773_29_alg».proof.Proof.Gen.Kernel.Frame
import Idealize.ShloMosaic.Lib.Pipeline.FrameBody
import Idealize.ShloMosaic.Lib.Pipeline.FrameSuffix
import Idealize.ShloMosaic.Lib.Tactic
import proofs.«158584_g73332271612656_cont_9to1c4b_773_29_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0 (t : Fin cfg0.N) : Memref sig .tc .vmem S256x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x256 .f32 := win0_7.stage (cfg0.slots t 7)
abbrev hs7 (t : Fin cfg0.N) : (ms7 t).IsWhole := hstage0_7 ((cfg0.slots t 7).cast nbuf0_7)

/-- The region's class invariant, with the one scratch buffer as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the buffers hold -/

/-- The first grid point. -/
def t0 : Fin cfg0.N := ⟨0, lt_of_lt_of_eq (by decide : 0 < 40) (show cfg0.N = 40 from N_0).symm⟩

/-- H: the product of the feature matrix and the weight matrix, as the body computes it at the first
    point from windows 1 and 2 (whose blocks are the whole arrays). -/
def hfeat (c : Dev nD) : Vec F S10000x32 .f32 := k0_pay1 (iblk m c 1 t0) (iblk m c 2 t0)

/-- The filler the proof data name past an array's end (nothing reads it). -/
def zfill {S : Shape} : S.Idx → Elt F .f32 := fun _ => Scalar.ofBits .f32 0#32

/-- The adjacency block at point t, filled out past the matrix's last row. -/
def blk0 (c : Dev nD) (t : Fin cfg0.N) : Vec F S256x10000 .f32 := win0_0.fill (grid0.coords t) zfill (iblk m c 0 t)
/-- The noise block at point t, filled out past the array's last column. -/
def blk4 (c : Dev nD) (t : Fin cfg0.N) : Vec F S16x256 .f32 := win0_4.fill (grid0.coords t) zfill (iblk m c 4 t)

/-- The invariant before position n: before the first point the class's (the scratch at anything);
    afterwards the scratch at H. -/
def PhiS (c : Dev nD) : ℕ → sProp 𝕄
  | 0 => Pipeline.ΦA spec0 c
  | _ + 1 => iprop(iprop(owns (c : Thread nD τ) scM fullShare (hfeat m c)) ∗ (∃ r, prngReg c r))

theorem PhiS_succ (c : Dev nD) (n : ℕ) :
    PhiS m c (n + 1) = iprop(iprop(owns (c : Thread nD τ) scM fullShare (hfeat m c)) ∗ (∃ r, prngReg c r)) := rfl

theorem PhiS_pos (c : Dev nD) (n : ℕ) (hn : n ≠ 0) :
    PhiS m c n = iprop(iprop(owns (c : Thread nD τ) scM fullShare (hfeat m c)) ∗ (∃ r, prngReg c r)) := by
  cases n with
  | zero => exact absurd rfl hn
  | succ n => rfl

/-- The proof data: the arrays as the region finds them; after the body each input buffer at its block
    (filled out where it overhangs), each output buffer at its payload of (H, adjacency block, bias, noise
    block); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => iblk m c 2 t
    | ⟨3, _⟩ => iblk m c 3 t
    | ⟨4, _⟩ => blk4 m c t
    | ⟨5, _⟩ => k0_pay5 (hfeat m c) (blk0 m c t) (iblk m c 3 t) (blk4 m c t)
    | ⟨6, _⟩ => k0_pay3 (hfeat m c) (blk0 m c t) (iblk m c 3 t)
    | ⟨7, _⟩ => k0_pay4 (hfeat m c) (blk0 m c t) (iblk m c 3 t)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blk4 m c t := by dsimp only [dats]
theorem after_5 (c : Dev nD) (t : Fin cfg0.N) :
    (dats m 0 c).after 5 t = k0_pay5 (hfeat m c) (blk0 m c t) (iblk m c 3 t) (blk4 m c t) := by dsimp only [dats]
theorem after_6 (c : Dev nD) (t : Fin cfg0.N) :
    (dats m 0 c).after 6 t = k0_pay3 (hfeat m c) (blk0 m c t) (iblk m c 3 t) := by dsimp only [dats]
theorem after_7 (c : Dev nD) (t : Fin cfg0.N) :
    (dats m 0 c).after 7 t = k0_pay4 (hfeat m c) (blk0 m c t) (iblk m c 3 t) := by dsimp only [dats]

/-! ## What the body finds -/

/-- Window 0 is fetched at every point: its buffer holds the block where the fetch lands it, anything past it. -/
theorem before_0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rw [A_eq m c 0]; try rfl)
theorem before_4 (c : Dev nD) (t : Fin cfg0.N) (d) :
    (dats m 0 c).before 4 t d = win0_4.fill (grid0.coords t) d (iblk m c 4 t) :=
  ((dats m 0 c).before_fetched 4 t (fetch0_4 t) d).trans (by unfold Dat.fetched Dat.blockOf iblk; rw [A_eq m c 4]; try rfl)
/-- Windows 1, 2, 3 hold their (whole-array) blocks at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- An output's buffer is fresh at every point (the point before wrote it back): anything. -/
theorem reset_of (t : Fin cfg0.N) (w : Fin cfg0.W) (hfl : ∀ u : Fin cfg0.N, (cfg0.win w).flush u = true) :
    t.val = 0 ∨ ∃ _ : t.val ≠ 0, (cfg0.win w).flush ⟨t.val - 1, Nat.lt_of_le_of_lt (Nat.sub_le _ _) t.isLt⟩ = true := by
  by_cases h : t.val = 0
  · exact .inl h
  · exact .inr ⟨h, hfl _⟩
theorem before_5 (c : Dev nD) (t : Fin cfg0.N) (d) : (dats m 0 c).before 5 t d = d :=
  (dats m 0 c).before_out_reset 5 rfl t (reset_of t 5 flush0_5) d
theorem before_6 (c : Dev nD) (t : Fin cfg0.N) (d) : (dats m 0 c).before 6 t d = d :=
  (dats m 0 c).before_out_reset 6 rfl t (reset_of t 6 flush0_6) d
theorem before_7 (c : Dev nD) (t : Fin cfg0.N) (d) : (dats m 0 c).before 7 t d = d :=
  (dats m 0 c).before_out_reset 7 rfl t (reset_of t 7 flush0_7) d

/-! ## The body's step at a generic point -/

/-- From the invariant and the eight buffers — the inputs at their blocks, the two overhanging ones filled
    out with anything, the outputs at anything — the body runs to the invariant of the next position, the
    inputs as they were and the outputs at their payloads of (H, what the adjacency buffer holds, the bias
    column, what the noise buffer holds).  At the first point H is computed and stored; later it is read. -/
theorem sound_core (c : Dev nD) (t : Fin cfg0.N) (d0 : Vec F S256x10000 .f32) (d4 X5 X6 X7 : Vec F S16x256 .f32)
    (K : PUnit → sProp 𝕄) :
    iprop((PhiS m c t.val
          ∗ owns (c : Thread nD τ) (ms0 t) fullShare (win0_0.fill (grid0.coords t) d0 (iblk m c 0 t))
          ∗ owns (c : Thread nD τ) (ms1 t) fullShare (iblk m c 1 t)
          ∗ owns (c : Thread nD τ) (ms2 t) fullShare (iblk m c 2 t)
          ∗ owns (c : Thread nD τ) (ms3 t) fullShare (iblk m c 3 t)
          ∗ owns (c : Thread nD τ) (ms4 t) fullShare (win0_4.fill (grid0.coords t) d4 (iblk m c 4 t))
          ∗ owns (c : Thread nD τ) (ms5 t) fullShare X5
          ∗ owns (c : Thread nD τ) (ms6 t) fullShare X6
          ∗ owns (c : Thread nD τ) (ms7 t) fullShare X7)
        ∗ (iprop(PhiS m c (t.val + 1)
              ∗ owns (c : Thread nD τ) (ms0 t) fullShare (win0_0.fill (grid0.coords t) d0 (iblk m c 0 t))
              ∗ owns (c : Thread nD τ) (ms1 t) fullShare (iblk m c 1 t)
              ∗ owns (c : Thread nD τ) (ms2 t) fullShare (iblk m c 2 t)
              ∗ owns (c : Thread nD τ) (ms3 t) fullShare (iblk m c 3 t)
              ∗ owns (c : Thread nD τ) (ms4 t) fullShare (win0_4.fill (grid0.coords t) d4 (iblk m c 4 t))
              ∗ owns (c : Thread nD τ) (ms5 t) fullShare (k0_pay5 (hfeat m c) (win0_0.fill (grid0.coords t) d0 (iblk m c 0 t)) (iblk m c 3 t) (win0_4.fill (grid0.coords t) d4 (iblk m c 4 t)))
              ∗ owns (c : Thread nD τ) (ms6 t) fullShare (k0_pay3 (hfeat m c) (win0_0.fill (grid0.coords t) d0 (iblk m c 0 t)) (iblk m c 3 t))
              ∗ owns (c : Thread nD τ) (ms7 t) fullShare (k0_pay4 (hfeat m c) (win0_0.fill (grid0.coords t) d0 (iblk m c 0 t)) (iblk m c 3 t))) -∗ K ⟨⟩))
      ⊢ wp frame (wpE (defs₀ (F := F)) Variants.none c none) Set.univ (bodyAt0 t) K := by
  unfold bodyAt0
  by_cases hz : t.val = 0
  · obtain rfl : t = t0 := Fin.ext hz
    rw [show PhiS m c (t0 : Fin cfg0.N).val = Pipeline.ΦA spec0 c from rfl, PhiA_eq, PhiS_succ]
    iintro ⟨⟨⟨⟨%s, HS⟩, Hg⟩, H0, H1, H2, H3, H4, H5, H6, H7⟩, Hk⟩
    iapply (run_first (F := F) c (grid0.coords t0) ((hcond0 t0).mpr rfl) (ms0 t0) (hs0 t0) (ms1 t0) (hs1 t0) (ms2 t0) (hs2 t0)
      (ms3 t0) (hs3 t0) (ms4 t0) (hs4 t0) (ms5 t0) (hs5 t0) (ms6 t0) (hs6 t0) (ms7 t0) (hs7 t0)
      (win0_0.fill (grid0.coords t0) d0 (iblk m c 0 t0)) (iblk m c 1 t0) (iblk m c 2 t0) (iblk m c 3 t0)
      (win0_4.fill (grid0.coords t0) d4 (iblk m c 4 t0)) X5 X6 X7 s Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    iapply Hk
    isplitl [HS Hg]
    · isplitl [HS]
      · iexact HS
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c t.val hz, PhiS_succ]
    iintro ⟨⟨⟨HS, Hg⟩, H0, H1, H2, H3, H4, H5, H6, H7⟩, Hk⟩
    iapply (run_later (F := F) c (grid0.coords t) (fun h => hz ((hcond0 t).mp h)) (ms0 t) (hs0 t) (ms1 t) (hs1 t) (ms2 t) (hs2 t)
      (ms3 t) (hs3 t) (ms4 t) (hs4 t) (ms5 t) (hs5 t) (ms6 t) (hs6 t) (ms7 t) (hs7 t)
      (win0_0.fill (grid0.coords t) d0 (iblk m c 0 t)) (iblk m c 1 t) (iblk m c 2 t) (iblk m c 3 t)
      (win0_4.fill (grid0.coords t) d4 (iblk m c 4 t)) X5 X6 X7 (hfeat m c) Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    iapply Hk
    isplitl [HS Hg]
    · isplitl [HS]
      · iexact HS
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.Kernel.Body

end
-- ==== Proof.BitsOblig.lean ====
/-
  The body obligation of the pipelined region, in two forms, and the two runs of the whole program.

  What the body leaves in an overhanging buffer is stated only on the part the transfers move.  For the
  two overhanging inputs that part is the block itself, whatever fills the rest.  For the three outputs
  it is the payload's columns inside the array; that these do not depend on what fills the adjacency and
  noise buffers past the arrays' ends is a property of the arithmetic (column i of the product reads row
  i of the adjacency buffer only), taken here as the hypothesis `CutInd`.  Where the outputs are not
  read afterwards they can be forgotten instead, and nothing is asked of the arithmetic.
-/
import proofs.«158584_g73332271612656_cont_9to1c4b_773_29_alg».proof.Proof.BitsData
import proofs.«158584_g73332271612656_cont_9to1c4b_773_29_alg».proof.Proof.Gen.Kernel.Frame
import Idealize.ShloMosaic.Lib.Pipeline.FrameBody
import Idealize.ShloMosaic.Lib.Pipeline.FrameSuffix
import Idealize.ShloMosaic.Lib.Tactic
import proofs.«158584_g73332271612656_cont_9to1c4b_773_29_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

/-- The three output windows. -/
def fgtOut : Fin cfg0.W → Bool := fun | 0 => false | 1 => false | 2 => false | 3 => false | 4 => false | 5 => true | 6 => true | 7 => true | ⟨_ + 8, h⟩ => absurd h (Nat.not_lt.2 (Nat.le_add_left _ _))

/-- The columns of the three payloads that lie inside the arrays do not depend on the fillers of the
    adjacency and noise buffers. -/
structure CutInd (c : Dev nD) : Prop where
  z : ∀ (t : Fin cfg0.N) (d0 : Vec F S256x10000 .f32) (d4 : Vec F S16x256 .f32),
    win0_5.cut (grid0.coords t) (k0_pay5 (hfeat m c) (win0_0.fill (grid0.coords t) d0 (iblk m c 0 t)) (iblk m c 3 t) (win0_4.fill (grid0.coords t) d4 (iblk m c 4 t)))
      = win0_5.cut (grid0.coords t) (k0_pay5 (hfeat m c) (blk0 m c t) (iblk m c 3 t) (blk4 m c t))
  mu : ∀ (t : Fin cfg0.N) (d0 : Vec F S256x10000 .f32),
    win0_6.cut (grid0.coords t) (k0_pay3 (hfeat m c) (win0_0.fill (grid0.coords t) d0 (iblk m c 0 t)) (iblk m c 3 t))
      = win0_6.cut (grid0.coords t) (k0_pay3 (hfeat m c) (blk0 m c t) (iblk m c 3 t))
  sd : ∀ (t : Fin cfg0.N) (d0 : Vec F S256x10000 .f32),
    win0_7.cut (grid0.coords t) (k0_pay4 (hfeat m c) (win0_0.fill (grid0.coords t) d0 (iblk m c 0 t)) (iblk m c 3 t))
      = win0_7.cut (grid0.coords t) (k0_pay4 (hfeat m c) (blk0 m c t) (iblk m c 3 t))

/-! ## The obligation with the outputs forgotten -/

theorem obligation_forget (c : Dev nD) :
    BodyObligationLoose (dats (F := F) m 0 c) (defs₀ (F := F)) Variants.none () Set.univ fgtOut := fun t => by
  rw [bigSep_W0, bigSep_W0]
  simp only [fgtOut]
  rw [show (dats m 0 c).owesAt () t.succ = (dats m 0 c).owesAt () t.castSucc from rfl, Phi_castSucc, Phi_succ]
  iintro ⟨HΦ, Ho, ⟨%d0, H0⟩, ⟨%d1, H1⟩, ⟨%d2, H2⟩, ⟨%d3, H3⟩, ⟨%d4, H4⟩, ⟨%X5, H5⟩, ⟨%X6, H6⟩, ⟨%X7, H7⟩⟩
  rw [before_0 m c t d0, before_1 m c t d1, before_2 m c t d2, before_3 m c t d3, before_4 m c t d4]
  iapply (sound_core (F := F) m c t d0 d4 X5 X6 X7 _)
  isplitl [HΦ H0 H1 H2 H3 H4 H5 H6 H7]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HΦ, H0, H1, H2, H3, H4, H5, H6, H7⟩
  isplitl [HΦ]; · iexact HΦ
  isplitl [Ho]; · iexact Ho
  isplitl [H0]
  · iexists d0
    change _ ⊢ owns (c : Thread nD τ) (ms0 t) fullShare (win0_0.fill (grid0.coords t) d0 (win0_0.cut (grid0.coords t) ((dats m 0 c).after 0 t)))
    rw [after_0, blk0, win0_0.cut_fill]; try iexact H0
  isplitl [H1]
  · change _ ⊢ owns (c : Thread nD τ) (ms1 t) fullShare ((dats m 0 c).after 1 t)
    rw [after_1]; try iexact H1
  isplitl [H2]
  · change _ ⊢ owns (c : Thread nD τ) (ms2 t) fullShare ((dats m 0 c).after 2 t)
    rw [after_2]; try iexact H2
  isplitl [H3]
  · change _ ⊢ owns (c : Thread nD τ) (ms3 t) fullShare ((dats m 0 c).after 3 t)
    rw [after_3]; try iexact H3
  isplitl [H4]
  · iexists d4
    change _ ⊢ owns (c : Thread nD τ) (ms4 t) fullShare (win0_4.fill (grid0.coords t) d4 (win0_4.cut (grid0.coords t) ((dats m 0 c).after 4 t)))
    rw [after_4, blk4, win0_4.cut_fill]; try iexact H4
  isplitl [H5]; · iexists _; iexact H5
  isplitl [H6]; · iexists _; iexact H6
  iexists _; iexact H7

/-! ## The obligation with every window stated -/

theorem obligation_full (c : Dev nD) (hci : CutInd m c) :
    BodyObligationLoose (dats (F := F) m 0 c) (defs₀ (F := F)) Variants.none () Set.univ := fun t => by
  rw [bigSep_W0, bigSep_W0]
  simp only
  rw [show (dats m 0 c).owesAt () t.succ = (dats m 0 c).owesAt () t.castSucc from rfl, Phi_castSucc, Phi_succ]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4,
    before_5 m c t d5, before_6 m c t d6, before_7 m c t d7]
  iapply (sound_core (F := F) m c t d0 d4 d5 d6 d7 _)
  isplitl [HΦ H0 H1 H2 H3 H4 H5 H6 H7]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HΦ, H0, H1, H2, H3, H4, H5, H6, H7⟩
  isplitl [HΦ]; · iexact HΦ
  isplitl [Ho]; · iexact Ho
  isplitl [H0]
  · iexists d0
    change _ ⊢ owns (c : Thread nD τ) (ms0 t) fullShare (win0_0.fill (grid0.coords t) d0 (win0_0.cut (grid0.coords t) ((dats m 0 c).after 0 t)))
    rw [after_0, blk0, win0_0.cut_fill]; try iexact H0
  isplitl [H1]
  · change _ ⊢ owns (c : Thread nD τ) (ms1 t) fullShare ((dats m 0 c).after 1 t)
    rw [after_1]; try iexact H1
  isplitl [H2]
  · change _ ⊢ owns (c : Thread nD τ) (ms2 t) fullShare ((dats m 0 c).after 2 t)
    rw [after_2]; try iexact H2
  isplitl [H3]
  · change _ ⊢ owns (c : Thread nD τ) (ms3 t) fullShare ((dats m 0 c).after 3 t)
    rw [after_3]; try iexact H3
  isplitl [H4]
  · iexists d4
    change _ ⊢ owns (c : Thread nD τ) (ms4 t) fullShare (win0_4.fill (grid0.coords t) d4 (win0_4.cut (grid0.coords t) ((dats m 0 c).after 4 t)))
    rw [after_4, blk4, win0_4.cut_fill]; try iexact H4
  isplitl [H5]
  · iexists _
    change _ ⊢ owns (c : Thread nD τ) (ms5 t) fullShare (win0_5.fill (grid0.coords t) _ (win0_5.cut (grid0.coords t) ((dats m 0 c).after 5 t)))
    rw [after_5, win0_5.fill_congr_cut _ (hci.z t d0 d4)]; try iexact H5
  isplitl [H6]
  · iexists _
    change _ ⊢ owns (c : Thread nD τ) (ms6 t) fullShare (win0_6.fill (grid0.coords t) _ (win0_6.cut (grid0.coords t) ((dats m 0 c).after 6 t)))
    rw [after_6, win0_6.fill_congr_cut _ (hci.mu t d0)]; try iexact H6
  · iexists _
    change _ ⊢ owns (c : Thread nD τ) (ms7 t) fullShare (win0_7.fill (grid0.coords t) _ (win0_7.cut (grid0.coords t) ((dats m 0 c).after 7 t)))
    rw [after_7, win0_7.fill_congr_cut _ (hci.sd t d0)]; try iexact H7

/-! ## The invariant at the region's two ends -/

theorem hin (c : Dev nD) : Pipeline.ΦA spec0 c ⊢ (dats (F := F) m 0 c).Φ 0 := by
  rw [show (dats m 0 c).Φ 0 = PhiS m c 0 from rfl]
  exact Idealize.SL.BI.Entails.refl _

theorem hout (c : Dev nD) : (dats (F := F) m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 40 := N_0; omega), PhiA_eq]
  iintro ⟨HS, Hg⟩
  isplitl [HS]
  · iexists _; iexact HS
  iexact Hg

end Cert.Kernel.Body

end
-- ==== Proof.BitsRuns.lean ====
/-
  The two runs of the whole program around its one region.

  With every window stated (given that the payloads' columns inside the arrays do not depend on the
  fillers) the run ends with each result array at what the proof data compute, and the three buffers the
  closing transposes write at the transposes of those.  With the three outputs forgotten the run still
  terminates without a fault and leaves every argument array as it was: the frame, at any float instance,
  asking nothing of the arithmetic.
-/
import proofs.«158584_g73332271612656_cont_9to1c4b_773_29_alg».proof.Proof.BitsOblig
import proofs.«158584_g73332271612656_cont_9to1c4b_773_29_alg».proof.Proof.Gen.Kernel.Frame
import Idealize.ShloMosaic.Lib.Pipeline.FrameBody
import Idealize.ShloMosaic.Lib.Pipeline.FrameSuffix
import Idealize.ShloMosaic.Lib.Tactic
import proofs.«158584_g73332271612656_cont_9to1c4b_773_29_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with every window stated. -/
theorem run_full (hci : ∀ c, CutInd (F := F) m c) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => obligation_full m c (hci c)) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The buffers the closing transposes write. -/
def Tres : Finset (Ref sig .tc) := {main_v5, main_v6, main_v7}

theorem tail_writes : ∀ ops ∈ ([hostOps1] : List (List (HloOp τ sig (Elt F)))), ∀ op ∈ ops,
    ∀ b : Ref sig .tc, Proc.devRef .tc b ∈ op.writes → b ∈ Tres := by
  intro ops hops op hop b hb
  simp only [List.mem_cons, List.mem_nil_iff, or_false] at hops
  rcases hops with rfl
  simp only [hostOps1, List.mem_cons, List.mem_nil_iff, or_false] at hop
  rcases hop with rfl | rfl | rfl
  · simp only [StableHlo.unary_writes, Finset.mem_singleton] at hb
    have : b = main_v5 := by_contra fun hne => StableHlo.devRef_ne_of_ne hne hb
    subst this; simp [Tres]
  · simp only [StableHlo.unary_writes, Finset.mem_singleton] at hb
    have : b = main_v6 := by_contra fun hne => StableHlo.devRef_ne_of_ne hne hb
    subst this; simp [Tres]
  · simp only [StableHlo.unary_writes, Finset.mem_singleton] at hb
    have : b = main_v7 := by_contra fun hne => StableHlo.devRef_ne_of_ne hne hb
    subst this; simp [Tres]

set_option backward.isDefEq.respectTransparency.types false in
/-- The run with the three outputs forgotten. -/
theorem run_forget :
    θ_run defs (onTc (τ := τ) (main (F := F))) (s₀ m ρ)
      (Pipeline.RDat.FramePostR cfg0 (fun c => (dats (F := F) m 0 c).toRForget fgtOut) Tres (fun c b => V0 m c (Proc.devRef .tc b))) :=
  Pipeline.RDat.θ_run_frame_around_T_track cfgs (0 : Fin 1) launch0 defs₀ Variants.none
    (fun c => (dats (F := F) m 0 c).toRForget fgtOut) Tres m ρ main
    (hbody := fun c => (obligation_forget m c).toRForget)
    (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := hin m) (hout := hout m)

/-- The frame: every weakly fair execution terminates, faults nowhere, and leaves the seven argument
    arrays as they were.  The two the region stages (the feature matrix and the adjacency matrix) are
    inputs of the pipeline, never written; the other five bypass the region, and neither the lines before
    it nor the closing transposes write them. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    have e0 : r.2.mem ((cfg0.spec 1).arr.view.loc (c.tc : Thread nD τ)) = ((dats (F := F) m 0 c).toRForget fgtOut).A 1 := by
      have := (h c).1 1; rwa [Pipeline.RDat.ArrAt_in _ 1 rfl] at this
    have e1 : r.2.mem ((cfg0.spec 0).arr.view.loc (c.tc : Thread nD τ)) = ((dats (F := F) m 0 c).toRForget fgtOut).A 0 := by
      have := (h c).1 0; rwa [Pipeline.RDat.ArrAt_in _ 0 rfl] at this
    have hr : ∀ b, b ∈ Pipeline.restRefs sig spec0 → b ∉ Tres → r.2.mem ((c.tc : Thread nD τ).loc b) = V m c b :=
      fun b hb hT => (h c).2 b (Finset.mem_sdiff.mpr ⟨hb, hT⟩)
    exact ⟨e0.trans ((A_eq m c 1).trans (V_main_arg0 m c)), e1.trans ((A_eq m c 0).trans (V_main_arg1 m c)),
      (hr main_arg2 (Pipeline.mem_restRefs_of main_arg2 (by decide) (by decide)) (by decide)).trans (V_main_arg2 m c),
      (hr main_arg3 (Pipeline.mem_restRefs_of main_arg3 (by decide) (by decide)) (by decide)).trans (V_main_arg3 m c),
      (hr main_arg4 (Pipeline.mem_restRefs_of main_arg4 (by decide) (by decide)) (by decide)).trans (V_main_arg4 m c),
      (hr main_arg5 (Pipeline.mem_restRefs_of main_arg5 (by decide) (by decide)) (by decide)).trans (V_main_arg5 m c),
      (hr main_arg6 (Pipeline.mem_restRefs_of main_arg6 (by decide) (by decide)) (by decide)).trans (V_main_arg6 m c)⟩)
    (run_forget m ρ)

end Cert.Kernel.Body

end
-- ==== Proof.IdealRun.lean ====
/-
  The kernel body as a Hoare triple on arbitrary buffer contents, at any float instance.

  The body has one branch: at the first grid point it fills the scratch with the product of the
  feature block and the weight block; at every point it then reads the scratch H, the adjacency
  block A, the bias column b and the noise block e, and stores three blocks, each a pure function
  (a named payload) of (H, A, b) or (H, A, b, e).  Both triples say: the five input buffers are left
  as found, the three output buffers end at their payloads, and the scratch ends at H, where H is
  the freshly computed product at the first point and the scratch's own contents afterwards.
-/
import proofs.«158584_g73332271612656_cont_9to1c4b_773_29_alg».proof.Proof.Gen.KernelIdeal.Frame
import Idealize.ShloMosaic.Lib.Pipeline.FrameBody
import Idealize.ShloMosaic.Lib.Pipeline.FrameSuffix
import Idealize.ShloMosaic.Lib.Tactic
import proofs.«158584_g73332271612656_cont_9to1c4b_773_29_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The scratch operand: a whole buffer of the kernel's own. -/
abbrev scM : Memref sig .tc .vmem S10000x32 .f32 := Memref.whole cc0_scratch0

/-- The body's one branch condition ("this is the first grid point"), from the grid coordinate. -/
abbrev cond0 (i : grid0.Coords) : Prop :=
  (Scalar.cmpi .ne (Scalar.extui (Scalar.cmpi .eq (BitVec.ofNat 32 (i 0).val) 0#32)) 0#32) = 1#1

/-- It holds exactly at point 0, decided over the forty points. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- At the first point: the scratch is overwritten by the product of the feature and weight buffers' contents, and the three outputs are the payloads of that product. -/
theorem run_first (c : Dev nD) (i : grid0.Coords) (hc : cond0 i)
    (a1 : Memref sig .tc .vmem S256x10000 .f32) (h1 : a1.IsWhole) (a2 : Memref sig .tc .vmem S10000x128 .f32) (h2 : a2.IsWhole)
    (a3 : Memref sig .tc .vmem S128x32 .f32) (h3 : a3.IsWhole) (a4 : Memref sig .tc .vmem S32x1 .f32) (h4 : a4.IsWhole)
    (a5 : Memref sig .tc .vmem S16x256 .f32) (h5 : a5.IsWhole) (a6 : Memref sig .tc .vmem S16x256 .f32) (h6 : a6.IsWhole)
    (a7 : Memref sig .tc .vmem S16x256 .f32) (h7 : a7.IsWhole) (a8 : Memref sig .tc .vmem S16x256 .f32) (h8 : a8.IsWhole)
    (Y0 : Vec F S256x10000 .f32) (Y1 : Vec F S10000x128 .f32) (Y2 : Vec F S128x32 .f32) (Y3 : Vec F S32x1 .f32)
    (Y4 Y5 Y6 Y7 : Vec F S16x256 .f32) (S : Vec F S10000x32 .f32) (E : Set ℕ) (K : PUnit → sProp 𝕄) :
    iprop(owns (c : Thread nD τ) a1 fullShare Y0 ∗ owns (c : Thread nD τ) a2 fullShare Y1 ∗ owns (c : Thread nD τ) a3 fullShare Y2 ∗ owns (c : Thread nD τ) a4 fullShare Y3 ∗ owns (c : Thread nD τ) a5 fullShare Y4 ∗ owns (c : Thread nD τ) a6 fullShare Y5 ∗ owns (c : Thread nD τ) a7 fullShare Y6 ∗ owns (c : Thread nD τ) a8 fullShare Y7 ∗ owns (c : Thread nD τ) scM fullShare S
        ∗ (iprop(owns (c : Thread nD τ) a1 fullShare Y0 ∗ owns (c : Thread nD τ) a2 fullShare Y1 ∗ owns (c : Thread nD τ) a3 fullShare Y2 ∗ owns (c : Thread nD τ) a4 fullShare Y3 ∗ owns (c : Thread nD τ) a5 fullShare Y4 ∗ owns (c : Thread nD τ) a6 fullShare (k0_pay5 (k0_pay1 Y1 Y2) Y0 Y3 Y4) ∗ owns (c : Thread nD τ) a7 fullShare (k0_pay3 (k0_pay1 Y1 Y2) Y0 Y3) ∗ owns (c : Thread nD τ) a8 fullShare (k0_pay4 (k0_pay1 Y1 Y2) Y0 Y3) ∗ owns (c : Thread nD τ) scM fullShare (k0_pay1 Y1 Y2)) -∗ K ⟨⟩))
      ⊢ wp frame (wpE (defs₀ (F := F)) Variants.none c none) E
          (cc0__gcn_kernel i a1 h1 a2 h2 a3 h3 a4 h4 a5 h5 a6 h6 a7 h7 a8 h8 scM (Memref.isWhole_whole _)) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := h1.eq_unread hf0; obtain rfl := h2.eq_unread hf1; obtain rfl := h3.eq_unread hf2; obtain rfl := h4.eq_unread hf3
  obtain rfl := h5.eq_unread hf4; obtain rfl := h6.eq_unread hf5; obtain rfl := h7.eq_unread hf6; obtain rfl := h8.eq_unread hf7
  obtain rfl := (Memref.isWhole_whole (cc0_scratch0 : Ref sig .tc)).eq_unread hfs
  sl_exec (disch := exact hc)
  sl_step
  iapply Hk
  have hz : (![0, 0] : Fin 2 → Nat) = fun _ => 0 := funext fun a => by fin_cases a <;> rfl
  have l0 : ∀ X : Vec F S256x10000 .f32, View.ld X (Rect.unit ![0, 0] S256x10000.size inb_S256x10000_S256x10000_0_0) = X :=
    fun X => View.ld_unit_zero (S := S256x10000) hz inb_S256x10000_S256x10000_0_0 X
  have l1 : ∀ X : Vec F S10000x128 .f32, View.ld X (Rect.unit ![0, 0] S10000x128.size inb_S10000x128_S10000x128_0_0) = X :=
    fun X => View.ld_unit_zero (S := S10000x128) hz inb_S10000x128_S10000x128_0_0 X
  have l2 : ∀ X : Vec F S128x32 .f32, View.ld X (Rect.unit ![0, 0] S128x32.size inb_S128x32_S128x32_0_0) = X :=
    fun X => View.ld_unit_zero (S := S128x32) hz inb_S128x32_S128x32_0_0 X
  have l3 : ∀ X : Vec F S32x1 .f32, View.ld X (Rect.unit ![0, 0] S32x1.size inb_S32x1_S32x1_0_0) = X :=
    fun X => View.ld_unit_zero (S := S32x1) hz inb_S32x1_S32x1_0_0 X
  have l4 : ∀ X : Vec F S16x256 .f32, View.ld X (Rect.unit ![0, 0] S16x256.size inb_S16x256_S16x256_0_0) = X :=
    fun X => View.ld_unit_zero (S := S16x256) hz inb_S16x256_S16x256_0_0 X
  have lS : ∀ X : Vec F S10000x32 .f32, View.ld X (Rect.unit ![0, 0] S10000x32.size inb_S10000x32_S10000x32_0_0) = X :=
    fun X => View.ld_unit_zero (S := S10000x32) hz inb_S10000x32_S10000x32_0_0 X
  have rc : ∀ w : Vec F S10000x32 .f32, scM.view.readCov [(⟨Rect.unit ![0, 0] S10000x32.size inb_S10000x32_S10000x32_0_0, w⟩ : View.Piece (Elt F) S10000x32 .f32)]
      (Rect.unit ![0, 0] S10000x32.size inb_S10000x32_S10000x32_0_0).toLoadRect = w :=
    fun w => View.readCov_unit_zero (S := S10000x32) scM.view hz inb_S10000x32_S10000x32_0_0 w
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr
    swap; · iexact H5
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  isplitl [H6]
  · iexists _; isplitr
    swap; · iexact H6
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  isplitl [H7]
  · iexists _; isplitr
    swap; · iexact H7
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  · iexists _; isplitr
    swap; · iexact HS
    ipureintro
    sl_unfold_words
    rw [View.read_writes_eq_canon _ _ _ (fun y => View.cover_of_tiledL _ S10000x32.size (by sl_kernel_rfl) y), View.canon_unit_zero hz]
    simp only [View.readAt_eq_ld, Memref.IsWhole.read_unread, l0, l1, l2, l3, l4, lS]

set_option maxHeartbeats 1000000 in
/-- At a later point: the scratch is only read, and the three outputs are the payloads of what it holds. -/
theorem run_later (c : Dev nD) (i : grid0.Coords) (hc : ¬cond0 i)
    (a1 : Memref sig .tc .vmem S256x10000 .f32) (h1 : a1.IsWhole) (a2 : Memref sig .tc .vmem S10000x128 .f32) (h2 : a2.IsWhole)
    (a3 : Memref sig .tc .vmem S128x32 .f32) (h3 : a3.IsWhole) (a4 : Memref sig .tc .vmem S32x1 .f32) (h4 : a4.IsWhole)
    (a5 : Memref sig .tc .vmem S16x256 .f32) (h5 : a5.IsWhole) (a6 : Memref sig .tc .vmem S16x256 .f32) (h6 : a6.IsWhole)
    (a7 : Memref sig .tc .vmem S16x256 .f32) (h7 : a7.IsWhole) (a8 : Memref sig .tc .vmem S16x256 .f32) (h8 : a8.IsWhole)
    (Y0 : Vec F S256x10000 .f32) (Y1 : Vec F S10000x128 .f32) (Y2 : Vec F S128x32 .f32) (Y3 : Vec F S32x1 .f32)
    (Y4 Y5 Y6 Y7 : Vec F S16x256 .f32) (S : Vec F S10000x32 .f32) (E : Set ℕ) (K : PUnit → sProp 𝕄) :
    iprop(owns (c : Thread nD τ) a1 fullShare Y0 ∗ owns (c : Thread nD τ) a2 fullShare Y1 ∗ owns (c : Thread nD τ) a3 fullShare Y2 ∗ owns (c : Thread nD τ) a4 fullShare Y3 ∗ owns (c : Thread nD τ) a5 fullShare Y4 ∗ owns (c : Thread nD τ) a6 fullShare Y5 ∗ owns (c : Thread nD τ) a7 fullShare Y6 ∗ owns (c : Thread nD τ) a8 fullShare Y7 ∗ owns (c : Thread nD τ) scM fullShare S
        ∗ (iprop(owns (c : Thread nD τ) a1 fullShare Y0 ∗ owns (c : Thread nD τ) a2 fullShare Y1 ∗ owns (c : Thread nD τ) a3 fullShare Y2 ∗ owns (c : Thread nD τ) a4 fullShare Y3 ∗ owns (c : Thread nD τ) a5 fullShare Y4 ∗ owns (c : Thread nD τ) a6 fullShare (k0_pay5 S Y0 Y3 Y4) ∗ owns (c : Thread nD τ) a7 fullShare (k0_pay3 S Y0 Y3) ∗ owns (c : Thread nD τ) a8 fullShare (k0_pay4 S Y0 Y3) ∗ owns (c : Thread nD τ) scM fullShare S) -∗ K ⟨⟩))
      ⊢ wp frame (wpE (defs₀ (F := F)) Variants.none c none) E
          (cc0__gcn_kernel i a1 h1 a2 h2 a3 h3 a4 h4 a5 h5 a6 h6 a7 h7 a8 h8 scM (Memref.isWhole_whole _)) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := h1.eq_unread hf0; obtain rfl := h2.eq_unread hf1; obtain rfl := h3.eq_unread hf2; obtain rfl := h4.eq_unread hf3
  obtain rfl := h5.eq_unread hf4; obtain rfl := h6.eq_unread hf5; obtain rfl := h7.eq_unread hf6; obtain rfl := h8.eq_unread hf7
  obtain rfl := (Memref.isWhole_whole (cc0_scratch0 : Ref sig .tc)).eq_unread hfs
  sl_exec (disch := exact hc)
  sl_step
  iapply Hk
  have hz : (![0, 0] : Fin 2 → Nat) = fun _ => 0 := funext fun a => by fin_cases a <;> rfl
  have l0 : ∀ X : Vec F S256x10000 .f32, View.ld X (Rect.unit ![0, 0] S256x10000.size inb_S256x10000_S256x10000_0_0) = X :=
    fun X => View.ld_unit_zero (S := S256x10000) hz inb_S256x10000_S256x10000_0_0 X
  have l1 : ∀ X : Vec F S10000x128 .f32, View.ld X (Rect.unit ![0, 0] S10000x128.size inb_S10000x128_S10000x128_0_0) = X :=
    fun X => View.ld_unit_zero (S := S10000x128) hz inb_S10000x128_S10000x128_0_0 X
  have l2 : ∀ X : Vec F S128x32 .f32, View.ld X (Rect.unit ![0, 0] S128x32.size inb_S128x32_S128x32_0_0) = X :=
    fun X => View.ld_unit_zero (S := S128x32) hz inb_S128x32_S128x32_0_0 X
  have l3 : ∀ X : Vec F S32x1 .f32, View.ld X (Rect.unit ![0, 0] S32x1.size inb_S32x1_S32x1_0_0) = X :=
    fun X => View.ld_unit_zero (S := S32x1) hz inb_S32x1_S32x1_0_0 X
  have l4 : ∀ X : Vec F S16x256 .f32, View.ld X (Rect.unit ![0, 0] S16x256.size inb_S16x256_S16x256_0_0) = X :=
    fun X => View.ld_unit_zero (S := S16x256) hz inb_S16x256_S16x256_0_0 X
  have lS : ∀ X : Vec F S10000x32 .f32, View.ld X (Rect.unit ![0, 0] S10000x32.size inb_S10000x32_S10000x32_0_0) = X :=
    fun X => View.ld_unit_zero (S := S10000x32) hz inb_S10000x32_S10000x32_0_0 X
  have rc : ∀ w : Vec F S10000x32 .f32, scM.view.readCov [(⟨Rect.unit ![0, 0] S10000x32.size inb_S10000x32_S10000x32_0_0, w⟩ : View.Piece (Elt F) S10000x32 .f32)]
      (Rect.unit ![0, 0] S10000x32.size inb_S10000x32_S10000x32_0_0).toLoadRect = w :=
    fun w => View.readCov_unit_zero (S := S10000x32) scM.view hz inb_S10000x32_S10000x32_0_0 w
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr
    swap; · iexact H5
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  isplitl [H6]
  · iexists _; isplitr
    swap; · iexact H6
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  isplitl [H7]
  · iexists _; isplitr
    swap; · iexact H7
    ipureintro
    rw [View.read_writes_eq_canon _ _ _ (fun y => View.cover_of_tiledL _ S16x256.size (by sl_kernel_rfl) y), View.canon_unit_zero hz]
    sl_unfold_words
    simp only [rc, View.readAt_eq_ld, Memref.IsWhole.read_unread, hfs, l0, l1, l2, l3, l4, lS]
  · iexists _; isplitr
    swap; · iexact HS
    ipureintro
    exact (Memref.isWhole_whole (cc0_scratch0 : Ref sig .tc)).read_unread _

end Cert.KernelIdeal.Body

end
-- ==== Proof.IdealData.lean ====
/-
  The proof data of the one pipelined region, and the body's step at a generic grid point.

  Windows: 0 is a 256-row block of the adjacency matrix (a new block at every point; the last block
  overhangs the matrix by 240 rows), 1 the whole feature matrix, 2 the whole weight matrix [W1|W2],
  3 the bias column, 4 a 256-column block of the transposed noise (overhanging by 240 columns at the
  last point), 5, 6, 7 the 256-column blocks of the three transposed results, written back at every
  point and cut at the arrays' end.  The scratch holds H = x·[W1|W2] from the first point on: that is
  the invariant carried from point to point.  What an overhanging buffer holds past the array's end
  is never named: it is the arbitrary filler d of `Window.fill`.
-/
import proofs.«158584_g73332271612656_cont_9to1c4b_773_29_alg».proof.Proof.IdealRun
import proofs.«158584_g73332271612656_cont_9to1c4b_773_29_alg».proof.Proof.Gen.KernelIdeal.Frame
import Idealize.ShloMosaic.Lib.Pipeline.FrameBody
import Idealize.ShloMosaic.Lib.Pipeline.FrameSuffix
import Idealize.ShloMosaic.Lib.Tactic
import proofs.«158584_g73332271612656_cont_9to1c4b_773_29_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0 (t : Fin cfg0.N) : Memref sig .tc .vmem S256x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x256 .f32 := win0_7.stage (cfg0.slots t 7)
abbrev hs7 (t : Fin cfg0.N) : (ms7 t).IsWhole := hstage0_7 ((cfg0.slots t 7).cast nbuf0_7)

/-- The region's class invariant, with the one scratch buffer as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the buffers hold -/

/-- The first grid point. -/
def t0 : Fin cfg0.N := ⟨0, lt_of_lt_of_eq (by decide : 0 < 40) (show cfg0.N = 40 from N_0).symm⟩

/-- H: the product of the feature matrix and the weight matrix, as the body computes it at the first
    point from windows 1 and 2 (whose blocks are the whole arrays). -/
def hfeat (c : Dev nD) : Vec F S10000x32 .f32 := k0_pay1 (iblk m c 1 t0) (iblk m c 2 t0)

/-- The filler the proof data name past an array's end (nothing reads it). -/
def zfill {S : Shape} : S.Idx → Elt F .f32 := fun _ => Scalar.ofBits .f32 0#32

/-- The adjacency block at point t, filled out past the matrix's last row. -/
def blk0 (c : Dev nD) (t : Fin cfg0.N) : Vec F S256x10000 .f32 := win0_0.fill (grid0.coords t) zfill (iblk m c 0 t)
/-- The noise block at point t, filled out past the array's last column. -/
def blk4 (c : Dev nD) (t : Fin cfg0.N) : Vec F S16x256 .f32 := win0_4.fill (grid0.coords t) zfill (iblk m c 4 t)

/-- The invariant before position n: before the first point the class's (the scratch at anything);
    afterwards the scratch at H. -/
def PhiS (c : Dev nD) : ℕ → sProp 𝕄
  | 0 => Pipeline.ΦA spec0 c
  | _ + 1 => iprop(iprop(owns (c : Thread nD τ) scM fullShare (hfeat m c)) ∗ (∃ r, prngReg c r))

theorem PhiS_succ (c : Dev nD) (n : ℕ) :
    PhiS m c (n + 1) = iprop(iprop(owns (c : Thread nD τ) scM fullShare (hfeat m c)) ∗ (∃ r, prngReg c r)) := rfl

theorem PhiS_pos (c : Dev nD) (n : ℕ) (hn : n ≠ 0) :
    PhiS m c n = iprop(iprop(owns (c : Thread nD τ) scM fullShare (hfeat m c)) ∗ (∃ r, prngReg c r)) := by
  cases n with
  | zero => exact absurd rfl hn
  | succ n => rfl

/-- The proof data: the arrays as the region finds them; after the body each input buffer at its block
    (filled out where it overhangs), each output buffer at its payload of (H, adjacency block, bias, noise
    block); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => iblk m c 2 t
    | ⟨3, _⟩ => iblk m c 3 t
    | ⟨4, _⟩ => blk4 m c t
    | ⟨5, _⟩ => k0_pay5 (hfeat m c) (blk0 m c t) (iblk m c 3 t) (blk4 m c t)
    | ⟨6, _⟩ => k0_pay3 (hfeat m c) (blk0 m c t) (iblk m c 3 t)
    | ⟨7, _⟩ => k0_pay4 (hfeat m c) (blk0 m c t) (iblk m c 3 t)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blk4 m c t := by dsimp only [dats]
theorem after_5 (c : Dev nD) (t : Fin cfg0.N) :
    (dats m 0 c).after 5 t = k0_pay5 (hfeat m c) (blk0 m c t) (iblk m c 3 t) (blk4 m c t) := by dsimp only [dats]
theorem after_6 (c : Dev nD) (t : Fin cfg0.N) :
    (dats m 0 c).after 6 t = k0_pay3 (hfeat m c) (blk0 m c t) (iblk m c 3 t) := by dsimp only [dats]
theorem after_7 (c : Dev nD) (t : Fin cfg0.N) :
    (dats m 0 c).after 7 t = k0_pay4 (hfeat m c) (blk0 m c t) (iblk m c 3 t) := by dsimp only [dats]

/-! ## What the body finds -/

/-- Window 0 is fetched at every point: its buffer holds the block where the fetch lands it, anything past it. -/
theorem before_0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rw [A_eq m c 0]; try rfl)
theorem before_4 (c : Dev nD) (t : Fin cfg0.N) (d) :
    (dats m 0 c).before 4 t d = win0_4.fill (grid0.coords t) d (iblk m c 4 t) :=
  ((dats m 0 c).before_fetched 4 t (fetch0_4 t) d).trans (by unfold Dat.fetched Dat.blockOf iblk; rw [A_eq m c 4]; try rfl)
/-- Windows 1, 2, 3 hold their (whole-array) blocks at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- An output's buffer is fresh at every point (the point before wrote it back): anything. -/
theorem reset_of (t : Fin cfg0.N) (w : Fin cfg0.W) (hfl : ∀ u : Fin cfg0.N, (cfg0.win w).flush u = true) :
    t.val = 0 ∨ ∃ _ : t.val ≠ 0, (cfg0.win w).flush ⟨t.val - 1, Nat.lt_of_le_of_lt (Nat.sub_le _ _) t.isLt⟩ = true := by
  by_cases h : t.val = 0
  · exact .inl h
  · exact .inr ⟨h, hfl _⟩
theorem before_5 (c : Dev nD) (t : Fin cfg0.N) (d) : (dats m 0 c).before 5 t d = d :=
  (dats m 0 c).before_out_reset 5 rfl t (reset_of t 5 flush0_5) d
theorem before_6 (c : Dev nD) (t : Fin cfg0.N) (d) : (dats m 0 c).before 6 t d = d :=
  (dats m 0 c).before_out_reset 6 rfl t (reset_of t 6 flush0_6) d
theorem before_7 (c : Dev nD) (t : Fin cfg0.N) (d) : (dats m 0 c).before 7 t d = d :=
  (dats m 0 c).before_out_reset 7 rfl t (reset_of t 7 flush0_7) d

/-! ## The body's step at a generic point -/

/-- From the invariant and the eight buffers — the inputs at their blocks, the two overhanging ones filled
    out with anything, the outputs at anything — the body runs to the invariant of the next position, the
    inputs as they were and the outputs at their payloads of (H, what the adjacency buffer holds, the bias
    column, what the noise buffer holds).  At the first point H is computed and stored; later it is read. -/
theorem sound_core (c : Dev nD) (t : Fin cfg0.N) (d0 : Vec F S256x10000 .f32) (d4 X5 X6 X7 : Vec F S16x256 .f32)
    (K : PUnit → sProp 𝕄) :
    iprop((PhiS m c t.val
          ∗ owns (c : Thread nD τ) (ms0 t) fullShare (win0_0.fill (grid0.coords t) d0 (iblk m c 0 t))
          ∗ owns (c : Thread nD τ) (ms1 t) fullShare (iblk m c 1 t)
          ∗ owns (c : Thread nD τ) (ms2 t) fullShare (iblk m c 2 t)
          ∗ owns (c : Thread nD τ) (ms3 t) fullShare (iblk m c 3 t)
          ∗ owns (c : Thread nD τ) (ms4 t) fullShare (win0_4.fill (grid0.coords t) d4 (iblk m c 4 t))
          ∗ owns (c : Thread nD τ) (ms5 t) fullShare X5
          ∗ owns (c : Thread nD τ) (ms6 t) fullShare X6
          ∗ owns (c : Thread nD τ) (ms7 t) fullShare X7)
        ∗ (iprop(PhiS m c (t.val + 1)
              ∗ owns (c : Thread nD τ) (ms0 t) fullShare (win0_0.fill (grid0.coords t) d0 (iblk m c 0 t))
              ∗ owns (c : Thread nD τ) (ms1 t) fullShare (iblk m c 1 t)
              ∗ owns (c : Thread nD τ) (ms2 t) fullShare (iblk m c 2 t)
              ∗ owns (c : Thread nD τ) (ms3 t) fullShare (iblk m c 3 t)
              ∗ owns (c : Thread nD τ) (ms4 t) fullShare (win0_4.fill (grid0.coords t) d4 (iblk m c 4 t))
              ∗ owns (c : Thread nD τ) (ms5 t) fullShare (k0_pay5 (hfeat m c) (win0_0.fill (grid0.coords t) d0 (iblk m c 0 t)) (iblk m c 3 t) (win0_4.fill (grid0.coords t) d4 (iblk m c 4 t)))
              ∗ owns (c : Thread nD τ) (ms6 t) fullShare (k0_pay3 (hfeat m c) (win0_0.fill (grid0.coords t) d0 (iblk m c 0 t)) (iblk m c 3 t))
              ∗ owns (c : Thread nD τ) (ms7 t) fullShare (k0_pay4 (hfeat m c) (win0_0.fill (grid0.coords t) d0 (iblk m c 0 t)) (iblk m c 3 t))) -∗ K ⟨⟩))
      ⊢ wp frame (wpE (defs₀ (F := F)) Variants.none c none) Set.univ (bodyAt0 t) K := by
  unfold bodyAt0
  by_cases hz : t.val = 0
  · obtain rfl : t = t0 := Fin.ext hz
    rw [show PhiS m c (t0 : Fin cfg0.N).val = Pipeline.ΦA spec0 c from rfl, PhiA_eq, PhiS_succ]
    iintro ⟨⟨⟨⟨%s, HS⟩, Hg⟩, H0, H1, H2, H3, H4, H5, H6, H7⟩, Hk⟩
    iapply (run_first (F := F) c (grid0.coords t0) ((hcond0 t0).mpr rfl) (ms0 t0) (hs0 t0) (ms1 t0) (hs1 t0) (ms2 t0) (hs2 t0)
      (ms3 t0) (hs3 t0) (ms4 t0) (hs4 t0) (ms5 t0) (hs5 t0) (ms6 t0) (hs6 t0) (ms7 t0) (hs7 t0)
      (win0_0.fill (grid0.coords t0) d0 (iblk m c 0 t0)) (iblk m c 1 t0) (iblk m c 2 t0) (iblk m c 3 t0)
      (win0_4.fill (grid0.coords t0) d4 (iblk m c 4 t0)) X5 X6 X7 s Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    iapply Hk
    isplitl [HS Hg]
    · isplitl [HS]
      · iexact HS
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c t.val hz, PhiS_succ]
    iintro ⟨⟨⟨HS, Hg⟩, H0, H1, H2, H3, H4, H5, H6, H7⟩, Hk⟩
    iapply (run_later (F := F) c (grid0.coords t) (fun h => hz ((hcond0 t).mp h)) (ms0 t) (hs0 t) (ms1 t) (hs1 t) (ms2 t) (hs2 t)
      (ms3 t) (hs3 t) (ms4 t) (hs4 t) (ms5 t) (hs5 t) (ms6 t) (hs6 t) (ms7 t) (hs7 t)
      (win0_0.fill (grid0.coords t) d0 (iblk m c 0 t)) (iblk m c 1 t) (iblk m c 2 t) (iblk m c 3 t)
      (win0_4.fill (grid0.coords t) d4 (iblk m c 4 t)) X5 X6 X7 (hfeat m c) Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    iapply Hk
    isplitl [HS Hg]
    · isplitl [HS]
      · iexact HS
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.KernelIdeal.Body

end
-- ==== Proof.IdealOblig.lean ====
/-
  The body obligation of the pipelined region, in two forms, and the two runs of the whole program.

  What the body leaves in an overhanging buffer is stated only on the part the transfers move.  For the
  two overhanging inputs that part is the block itself, whatever fills the rest.  For the three outputs
  it is the payload's columns inside the array; that these do not depend on what fills the adjacency and
  noise buffers past the arrays' ends is a property of the arithmetic (column i of the product reads row
  i of the adjacency buffer only), taken here as the hypothesis `CutInd`.  Where the outputs are not
  read afterwards they can be forgotten instead, and nothing is asked of the arithmetic.
-/
import proofs.«158584_g73332271612656_cont_9to1c4b_773_29_alg».proof.Proof.IdealData
import proofs.«158584_g73332271612656_cont_9to1c4b_773_29_alg».proof.Proof.Gen.KernelIdeal.Frame
import Idealize.ShloMosaic.Lib.Pipeline.FrameBody
import Idealize.ShloMosaic.Lib.Pipeline.FrameSuffix
import Idealize.ShloMosaic.Lib.Tactic
import proofs.«158584_g73332271612656_cont_9to1c4b_773_29_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

/-- The three output windows. -/
def fgtOut : Fin cfg0.W → Bool := fun | 0 => false | 1 => false | 2 => false | 3 => false | 4 => false | 5 => true | 6 => true | 7 => true | ⟨_ + 8, h⟩ => absurd h (Nat.not_lt.2 (Nat.le_add_left _ _))

/-- The columns of the three payloads that lie inside the arrays do not depend on the fillers of the
    adjacency and noise buffers. -/
structure CutInd (c : Dev nD) : Prop where
  z : ∀ (t : Fin cfg0.N) (d0 : Vec F S256x10000 .f32) (d4 : Vec F S16x256 .f32),
    win0_5.cut (grid0.coords t) (k0_pay5 (hfeat m c) (win0_0.fill (grid0.coords t) d0 (iblk m c 0 t)) (iblk m c 3 t) (win0_4.fill (grid0.coords t) d4 (iblk m c 4 t)))
      = win0_5.cut (grid0.coords t) (k0_pay5 (hfeat m c) (blk0 m c t) (iblk m c 3 t) (blk4 m c t))
  mu : ∀ (t : Fin cfg0.N) (d0 : Vec F S256x10000 .f32),
    win0_6.cut (grid0.coords t) (k0_pay3 (hfeat m c) (win0_0.fill (grid0.coords t) d0 (iblk m c 0 t)) (iblk m c 3 t))
      = win0_6.cut (grid0.coords t) (k0_pay3 (hfeat m c) (blk0 m c t) (iblk m c 3 t))
  sd : ∀ (t : Fin cfg0.N) (d0 : Vec F S256x10000 .f32),
    win0_7.cut (grid0.coords t) (k0_pay4 (hfeat m c) (win0_0.fill (grid0.coords t) d0 (iblk m c 0 t)) (iblk m c 3 t))
      = win0_7.cut (grid0.coords t) (k0_pay4 (hfeat m c) (blk0 m c t) (iblk m c 3 t))

/-! ## The obligation with the outputs forgotten -/

theorem obligation_forget (c : Dev nD) :
    BodyObligationLoose (dats (F := F) m 0 c) (defs₀ (F := F)) Variants.none () Set.univ fgtOut := fun t => by
  rw [bigSep_W0, bigSep_W0]
  simp only [fgtOut]
  rw [show (dats m 0 c).owesAt () t.succ = (dats m 0 c).owesAt () t.castSucc from rfl, Phi_castSucc, Phi_succ]
  iintro ⟨HΦ, Ho, ⟨%d0, H0⟩, ⟨%d1, H1⟩, ⟨%d2, H2⟩, ⟨%d3, H3⟩, ⟨%d4, H4⟩, ⟨%X5, H5⟩, ⟨%X6, H6⟩, ⟨%X7, H7⟩⟩
  rw [before_0 m c t d0, before_1 m c t d1, before_2 m c t d2, before_3 m c t d3, before_4 m c t d4]
  iapply (sound_core (F := F) m c t d0 d4 X5 X6 X7 _)
  isplitl [HΦ H0 H1 H2 H3 H4 H5 H6 H7]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HΦ, H0, H1, H2, H3, H4, H5, H6, H7⟩
  isplitl [HΦ]; · iexact HΦ
  isplitl [Ho]; · iexact Ho
  isplitl [H0]
  · iexists d0
    change _ ⊢ owns (c : Thread nD τ) (ms0 t) fullShare (win0_0.fill (grid0.coords t) d0 (win0_0.cut (grid0.coords t) ((dats m 0 c).after 0 t)))
    rw [after_0, blk0, win0_0.cut_fill]; try iexact H0
  isplitl [H1]
  · change _ ⊢ owns (c : Thread nD τ) (ms1 t) fullShare ((dats m 0 c).after 1 t)
    rw [after_1]; try iexact H1
  isplitl [H2]
  · change _ ⊢ owns (c : Thread nD τ) (ms2 t) fullShare ((dats m 0 c).after 2 t)
    rw [after_2]; try iexact H2
  isplitl [H3]
  · change _ ⊢ owns (c : Thread nD τ) (ms3 t) fullShare ((dats m 0 c).after 3 t)
    rw [after_3]; try iexact H3
  isplitl [H4]
  · iexists d4
    change _ ⊢ owns (c : Thread nD τ) (ms4 t) fullShare (win0_4.fill (grid0.coords t) d4 (win0_4.cut (grid0.coords t) ((dats m 0 c).after 4 t)))
    rw [after_4, blk4, win0_4.cut_fill]; try iexact H4
  isplitl [H5]; · iexists _; iexact H5
  isplitl [H6]; · iexists _; iexact H6
  iexists _; iexact H7

/-! ## The obligation with every window stated -/

theorem obligation_full (c : Dev nD) (hci : CutInd m c) :
    BodyObligationLoose (dats (F := F) m 0 c) (defs₀ (F := F)) Variants.none () Set.univ := fun t => by
  rw [bigSep_W0, bigSep_W0]
  simp only
  rw [show (dats m 0 c).owesAt () t.succ = (dats m 0 c).owesAt () t.castSucc from rfl, Phi_castSucc, Phi_succ]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4,
    before_5 m c t d5, before_6 m c t d6, before_7 m c t d7]
  iapply (sound_core (F := F) m c t d0 d4 d5 d6 d7 _)
  isplitl [HΦ H0 H1 H2 H3 H4 H5 H6 H7]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HΦ, H0, H1, H2, H3, H4, H5, H6, H7⟩
  isplitl [HΦ]; · iexact HΦ
  isplitl [Ho]; · iexact Ho
  isplitl [H0]
  · iexists d0
    change _ ⊢ owns (c : Thread nD τ) (ms0 t) fullShare (win0_0.fill (grid0.coords t) d0 (win0_0.cut (grid0.coords t) ((dats m 0 c).after 0 t)))
    rw [after_0, blk0, win0_0.cut_fill]; try iexact H0
  isplitl [H1]
  · change _ ⊢ owns (c : Thread nD τ) (ms1 t) fullShare ((dats m 0 c).after 1 t)
    rw [after_1]; try iexact H1
  isplitl [H2]
  · change _ ⊢ owns (c : Thread nD τ) (ms2 t) fullShare ((dats m 0 c).after 2 t)
    rw [after_2]; try iexact H2
  isplitl [H3]
  · change _ ⊢ owns (c : Thread nD τ) (ms3 t) fullShare ((dats m 0 c).after 3 t)
    rw [after_3]; try iexact H3
  isplitl [H4]
  · iexists d4
    change _ ⊢ owns (c : Thread nD τ) (ms4 t) fullShare (win0_4.fill (grid0.coords t) d4 (win0_4.cut (grid0.coords t) ((dats m 0 c).after 4 t)))
    rw [after_4, blk4, win0_4.cut_fill]; try iexact H4
  isplitl [H5]
  · iexists _
    change _ ⊢ owns (c : Thread nD τ) (ms5 t) fullShare (win0_5.fill (grid0.coords t) _ (win0_5.cut (grid0.coords t) ((dats m 0 c).after 5 t)))
    rw [after_5, win0_5.fill_congr_cut _ (hci.z t d0 d4)]; try iexact H5
  isplitl [H6]
  · iexists _
    change _ ⊢ owns (c : Thread nD τ) (ms6 t) fullShare (win0_6.fill (grid0.coords t) _ (win0_6.cut (grid0.coords t) ((dats m 0 c).after 6 t)))
    rw [after_6, win0_6.fill_congr_cut _ (hci.mu t d0)]; try iexact H6
  · iexists _
    change _ ⊢ owns (c : Thread nD τ) (ms7 t) fullShare (win0_7.fill (grid0.coords t) _ (win0_7.cut (grid0.coords t) ((dats m 0 c).after 7 t)))
    rw [after_7, win0_7.fill_congr_cut _ (hci.sd t d0)]; try iexact H7

/-! ## The invariant at the region's two ends -/

theorem hin (c : Dev nD) : Pipeline.ΦA spec0 c ⊢ (dats (F := F) m 0 c).Φ 0 := by
  rw [show (dats m 0 c).Φ 0 = PhiS m c 0 from rfl]
  exact Idealize.SL.BI.Entails.refl _

theorem hout (c : Dev nD) : (dats (F := F) m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 40 := N_0; omega), PhiA_eq]
  iintro ⟨HS, Hg⟩
  isplitl [HS]
  · iexists _; iexact HS
  iexact Hg

end Cert.KernelIdeal.Body

end
-- ==== Proof.IdealRuns.lean ====
/-
  The two runs of the whole program around its one region.

  With every window stated (given that the payloads' columns inside the arrays do not depend on the
  fillers) the run ends with each result array at what the proof data compute, and the three buffers the
  closing transposes write at the transposes of those.  With the three outputs forgotten the run still
  terminates without a fault and leaves every argument array as it was: the frame, at any float instance,
  asking nothing of the arithmetic.
-/
import proofs.«158584_g73332271612656_cont_9to1c4b_773_29_alg».proof.Proof.IdealOblig
import proofs.«158584_g73332271612656_cont_9to1c4b_773_29_alg».proof.Proof.Gen.KernelIdeal.Frame
import Idealize.ShloMosaic.Lib.Pipeline.FrameBody
import Idealize.ShloMosaic.Lib.Pipeline.FrameSuffix
import Idealize.ShloMosaic.Lib.Tactic
import proofs.«158584_g73332271612656_cont_9to1c4b_773_29_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with every window stated. -/
theorem run_full (hci : ∀ c, CutInd (F := F) m c) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => obligation_full m c (hci c)) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The buffers the closing transposes write. -/
def Tres : Finset (Ref sig .tc) := {main_v5, main_v6, main_v7}

theorem tail_writes : ∀ ops ∈ ([hostOps1] : List (List (HloOp τ sig (Elt F)))), ∀ op ∈ ops,
    ∀ b : Ref sig .tc, Proc.devRef .tc b ∈ op.writes → b ∈ Tres := by
  intro ops hops op hop b hb
  simp only [List.mem_cons, List.mem_nil_iff, or_false] at hops
  rcases hops with rfl
  simp only [hostOps1, List.mem_cons, List.mem_nil_iff, or_false] at hop
  rcases hop with rfl | rfl | rfl
  · simp only [StableHlo.unary_writes, Finset.mem_singleton] at hb
    have : b = main_v5 := by_contra fun hne => StableHlo.devRef_ne_of_ne hne hb
    subst this; simp [Tres]
  · simp only [StableHlo.unary_writes, Finset.mem_singleton] at hb
    have : b = main_v6 := by_contra fun hne => StableHlo.devRef_ne_of_ne hne hb
    subst this; simp [Tres]
  · simp only [StableHlo.unary_writes, Finset.mem_singleton] at hb
    have : b = main_v7 := by_contra fun hne => StableHlo.devRef_ne_of_ne hne hb
    subst this; simp [Tres]

set_option backward.isDefEq.respectTransparency.types false in
/-- The run with the three outputs forgotten. -/
theorem run_forget :
    θ_run defs (onTc (τ := τ) (main (F := F))) (s₀ m ρ)
      (Pipeline.RDat.FramePostR cfg0 (fun c => (dats (F := F) m 0 c).toRForget fgtOut) Tres (fun c b => V0 m c (Proc.devRef .tc b))) :=
  Pipeline.RDat.θ_run_frame_around_T_track cfgs (0 : Fin 1) launch0 defs₀ Variants.none
    (fun c => (dats (F := F) m 0 c).toRForget fgtOut) Tres m ρ main
    (hbody := fun c => (obligation_forget m c).toRForget)
    (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := hin m) (hout := hout m)

/-- The frame: every weakly fair execution terminates, faults nowhere, and leaves the seven argument
    arrays as they were.  The two the region stages (the feature matrix and the adjacency matrix) are
    inputs of the pipeline, never written; the other five bypass the region, and neither the lines before
    it nor the closing transposes write them. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    have e0 : r.2.mem ((cfg0.spec 1).arr.view.loc (c.tc : Thread nD τ)) = ((dats (F := F) m 0 c).toRForget fgtOut).A 1 := by
      have := (h c).1 1; rwa [Pipeline.RDat.ArrAt_in _ 1 rfl] at this
    have e1 : r.2.mem ((cfg0.spec 0).arr.view.loc (c.tc : Thread nD τ)) = ((dats (F := F) m 0 c).toRForget fgtOut).A 0 := by
      have := (h c).1 0; rwa [Pipeline.RDat.ArrAt_in _ 0 rfl] at this
    have hr : ∀ b, b ∈ Pipeline.restRefs sig spec0 → b ∉ Tres → r.2.mem ((c.tc : Thread nD τ).loc b) = V m c b :=
      fun b hb hT => (h c).2 b (Finset.mem_sdiff.mpr ⟨hb, hT⟩)
    exact ⟨e0.trans ((A_eq m c 1).trans (V_main_arg0 m c)), e1.trans ((A_eq m c 0).trans (V_main_arg1 m c)),
      (hr main_arg2 (Pipeline.mem_restRefs_of main_arg2 (by decide) (by decide)) (by decide)).trans (V_main_arg2 m c),
      (hr main_arg3 (Pipeline.mem_restRefs_of main_arg3 (by decide) (by decide)) (by decide)).trans (V_main_arg3 m c),
      (hr main_arg4 (Pipeline.mem_restRefs_of main_arg4 (by decide) (by decide)) (by decide)).trans (V_main_arg4 m c),
      (hr main_arg5 (Pipeline.mem_restRefs_of main_arg5 (by decide) (by decide)) (by decide)).trans (V_main_arg5 m c),
      (hr main_arg6 (Pipeline.mem_restRefs_of main_arg6 (by decide) (by decide)) (by decide)).trans (V_main_arg6 m c)⟩)
    (run_forget m ρ)

end Cert.KernelIdeal.Body

end
-- ==== Proof.Halves.lean ====
/-
  The 32 stacked rows of the kernel's intermediate are two halves of 16: the first carries the mu
  layer, the second the variance layer.
-/
import Mathlib.Data.Fin.Basic

namespace Cert.KernelIdeal.PayAt

/-- Row r of the first half of the stacked 32 rows. -/
def lo (r : Fin 16) : Fin 32 := ⟨r.val, by omega⟩
/-- Row r of the second half. -/
def hi (r : Fin 16) : Fin 32 := ⟨r.val + 16, by omega⟩

end Cert.KernelIdeal.PayAt
-- ==== Proof.IdealBlocks.lean ====
/-
  What the region's windows hold, entry by entry, in terms of the seven argument arrays.

  The weight window is [W1|W2] (columns 0..15 from W1, 16..31 from W2); the bias window is the column
  (b1; b2); the noise window is the transpose of eps.  Row q of the adjacency block at point t is row
  256·t + q of the adjacency matrix, for the rows q that lie inside the matrix — whatever fills the
  buffer's other rows; column q of the noise block at point t is column 256·t + q of the transposed
  noise, likewise.  The number of rows (columns) inside is the same for the adjacency window, the noise
  window and the three output windows at every point.
-/
import proofs.«158584_g73332271612656_cont_9to1c4b_773_29_alg».proof.Proof.IdealRuns
import proofs.«158584_g73332271612656_cont_9to1c4b_773_29_alg».proof.Proof.Halves
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Body Cert.KernelIdeal.PayAt
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ)

/-! ## The seven arguments, by name -/

abbrev xA (c : Dev nD) : S10000x128.Idx → EReal := m ((c : Thread nD τ).loc main_arg0)
abbrev adjA (c : Dev nD) : S10000x10000.Idx → EReal := m ((c : Thread nD τ).loc main_arg1)
abbrev W1A (c : Dev nD) : S128x16.Idx → EReal := m ((c : Thread nD τ).loc main_arg2)
abbrev b1A (c : Dev nD) : S16.Idx → EReal := m ((c : Thread nD τ).loc main_arg3)
abbrev W2A (c : Dev nD) : S128x16.Idx → EReal := m ((c : Thread nD τ).loc main_arg4)
abbrev b2A (c : Dev nD) : S16.Idx → EReal := m ((c : Thread nD τ).loc main_arg5)
abbrev epsA (c : Dev nD) : S10000x16.Idx → EReal := m ((c : Thread nD τ).loc main_arg6)

/-! ## The three arrays the lines before the region compute -/

theorem V_v0 (c : Dev nD) : (V m c main_v0 : S128x32.Idx → EReal)
    = concatenate S128x32 1 [⟨S128x16, W1A m c⟩, ⟨S128x16, W2A m c⟩] concatenates_S128x16_S128x16_S128x32_d1 := by
  show StableHlo.after hostOps0 (fun b => m (c, b)) (Proc.devRef .tc main_v0) = _
  after_results
  try rfl

theorem V_v2 (c : Dev nD) : (V m c main_v2 : S32x1.Idx → EReal)
    = shapeCast S32x1 (concatenate S32 0 [⟨S16, b1A m c⟩, ⟨S16, b2A m c⟩] concatenates_S16_S16_S32_d0) shapeCasts_S32_S32x1 := by
  show StableHlo.after hostOps0 (fun b => m (c, b)) (Proc.devRef .tc main_v2) = _
  after_results
  try rfl

theorem V_v3 (c : Dev nD) : (V m c main_v3 : S16x10000.Idx → EReal)
    = transpose S16x10000 [1, 0] (epsA m c) transposes_S10000x16_S16x10000_1_0 := by
  show StableHlo.after hostOps0 (fun b => m (c, b)) (Proc.devRef .tc main_v3) = _
  after_results
  try rfl

/-- Column r of [W1|W2] is column r of W1; -/
theorem W_lo (c : Dev nD) (f : Fin 128) (r : Fin 16) : V m c main_v0 (ix2 f (lo r)) = W1A m c (ix2 f r) := by
  rw [V_v0]
  exact concatenate_pair_apply_left (s₁ := S128x16) (s₂ := S128x16) (1 : Fin 2) _ _ _ (ix2 f (lo r)) rfl (ix2 f r) (fun b => by match b with | ⟨0, _⟩ => rfl | ⟨1, _⟩ => rfl)
/-- column 16 + r is column r of W2. -/
theorem W_hi (c : Dev nD) (f : Fin 128) (r : Fin 16) : V m c main_v0 (ix2 f (hi r)) = W2A m c (ix2 f r) := by
  rw [V_v0]
  exact concatenate_pair_apply_right (s₁ := S128x16) (s₂ := S128x16) (1 : Fin 2) _ _ _ (ix2 f (hi r)) rfl rfl (ix2 f r)
    (fun b hb => by match b with | ⟨0, _⟩ => rfl | ⟨1, _⟩ => exact absurd rfl hb) rfl

/-- Entry r of the bias column is b1(r), -/
theorem b_lo (c : Dev nD) (r : Fin 16) : V m c main_v2 (ix2 (lo r) (0 : Fin 1)) = b1A m c (ix1 r) := by
  rw [V_v2, shapeCast_apply _ _ _ (ix1 (lo r)) (by rw [Shape.rowMajor_val_one, Shape.rowMajor_val_two]; show (lo r).val = (lo r).val * 1 + 0; omega)]
  exact concatenate_pair_apply_left (s₁ := S16) (s₂ := S16) (0 : Fin 1) _ _ _ (ix1 (lo r)) rfl (ix1 r) (fun b => by match b with | ⟨0, _⟩ => rfl)
/-- entry 16 + r is b2(r). -/
theorem b_hi (c : Dev nD) (r : Fin 16) : V m c main_v2 (ix2 (hi r) (0 : Fin 1)) = b2A m c (ix1 r) := by
  rw [V_v2, shapeCast_apply _ _ _ (ix1 (hi r)) (by rw [Shape.rowMajor_val_one, Shape.rowMajor_val_two]; show (hi r).val = (hi r).val * 1 + 0; omega)]
  exact concatenate_pair_apply_right (s₁ := S16) (s₂ := S16) (0 : Fin 1) _ _ _ (ix1 (hi r)) rfl rfl (ix1 r)
    (fun b hb => by match b with | ⟨0, _⟩ => exact absurd rfl hb) rfl

/-- The transposed noise at (r, i) is eps(i, r). -/
theorem epsT_at (c : Dev nD) (r : Fin 16) (i : Fin 10000) : V m c main_v3 (ix2 r i) = epsA m c (ix2 i r) := by
  rw [V_v3]; exact transpose_ix2_apply _ _ r i

/-! ## The schedule's index maps and cuts, decided over the forty points -/

theorem sched : ∀ t : Fin cfg0.N,
    win0_0.index t 0 = t.val ∧ win0_0.index t 1 = 0 ∧ win0_0.xsize (grid0.coords t) 1 = 10000
    ∧ t.val * 256 + win0_0.xsize (grid0.coords t) 0 ≤ 10000 ∧ win0_0.xsize (grid0.coords t) 0 ≤ 256
    ∧ win0_0.xsize (grid0.coords t) 0 = min 256 (10000 - t.val * 256)
    ∧ win0_4.index t 0 = 0 ∧ win0_4.index t 1 = t.val ∧ win0_4.xsize (grid0.coords t) 0 = 16
    ∧ win0_4.xsize (grid0.coords t) 1 = win0_0.xsize (grid0.coords t) 0
    ∧ win0_5.index t 0 = 0 ∧ win0_5.index t 1 = t.val ∧ win0_5.xsize (grid0.coords t) 0 = 16
    ∧ win0_5.xsize (grid0.coords t) 1 = win0_0.xsize (grid0.coords t) 0
    ∧ win0_6.index t 0 = 0 ∧ win0_6.index t 1 = t.val ∧ win0_6.xsize (grid0.coords t) 0 = 16
    ∧ win0_6.xsize (grid0.coords t) 1 = win0_0.xsize (grid0.coords t) 0
    ∧ win0_7.index t 0 = 0 ∧ win0_7.index t 1 = t.val ∧ win0_7.xsize (grid0.coords t) 0 = 16
    ∧ win0_7.xsize (grid0.coords t) 1 = win0_0.xsize (grid0.coords t) 0
    ∧ win0_1.index t 0 = 0 ∧ win0_1.index t 1 = 0 ∧ win0_2.index t 0 = 0 ∧ win0_2.index t 1 = 0
    ∧ win0_3.index t 0 = 0 ∧ win0_3.index t 1 = 0 :=
  (by decide +kernel : ∀ t : Fin grid0.N, _)

theorem sc0 (t : Fin cfg0.N) : win0_0.index t 0 = t.val := (sched t).1
theorem sc1 (t : Fin cfg0.N) : win0_0.index t 1 = 0 := (sched t).2.1
theorem sc2 (t : Fin cfg0.N) : win0_0.xsize (grid0.coords t) 1 = 10000 := (sched t).2.2.1
theorem sc3 (t : Fin cfg0.N) : t.val * 256 + win0_0.xsize (grid0.coords t) 0 ≤ 10000 := (sched t).2.2.2.1
theorem sc4 (t : Fin cfg0.N) : win0_0.xsize (grid0.coords t) 0 ≤ 256 := (sched t).2.2.2.2.1
theorem sc5 (t : Fin cfg0.N) : win0_0.xsize (grid0.coords t) 0 = min 256 (10000 - t.val * 256) := (sched t).2.2.2.2.2.1
theorem sc6 (t : Fin cfg0.N) : win0_4.index t 0 = 0 := (sched t).2.2.2.2.2.2.1
theorem sc7 (t : Fin cfg0.N) : win0_4.index t 1 = t.val := (sched t).2.2.2.2.2.2.2.1
theorem sc8 (t : Fin cfg0.N) : win0_4.xsize (grid0.coords t) 0 = 16 := (sched t).2.2.2.2.2.2.2.2.1
theorem sc9 (t : Fin cfg0.N) : win0_4.xsize (grid0.coords t) 1 = win0_0.xsize (grid0.coords t) 0 := (sched t).2.2.2.2.2.2.2.2.2.1
theorem sc10 (t : Fin cfg0.N) : win0_5.index t 0 = 0 := (sched t).2.2.2.2.2.2.2.2.2.2.1
theorem sc11 (t : Fin cfg0.N) : win0_5.index t 1 = t.val := (sched t).2.2.2.2.2.2.2.2.2.2.2.1
theorem sc12 (t : Fin cfg0.N) : win0_5.xsize (grid0.coords t) 0 = 16 := (sched t).2.2.2.2.2.2.2.2.2.2.2.2.1
theorem sc13 (t : Fin cfg0.N) : win0_5.xsize (grid0.coords t) 1 = win0_0.xsize (grid0.coords t) 0 := (sched t).2.2.2.2.2.2.2.2.2.2.2.2.2.1
theorem sc14 (t : Fin cfg0.N) : win0_6.index t 0 = 0 := (sched t).2.2.2.2.2.2.2.2.2.2.2.2.2.2.1
theorem sc15 (t : Fin cfg0.N) : win0_6.index t 1 = t.val := (sched t).2.2.2.2.2.2.2.2.2.2.2.2.2.2.2.1
theorem sc16 (t : Fin cfg0.N) : win0_6.xsize (grid0.coords t) 0 = 16 := (sched t).2.2.2.2.2.2.2.2.2.2.2.2.2.2.2.2.1
theorem sc17 (t : Fin cfg0.N) : win0_6.xsize (grid0.coords t) 1 = win0_0.xsize (grid0.coords t) 0 := (sched t).2.2.2.2.2.2.2.2.2.2.2.2.2.2.2.2.2.1
theorem sc18 (t : Fin cfg0.N) : win0_7.index t 0 = 0 := (sched t).2.2.2.2.2.2.2.2.2.2.2.2.2.2.2.2.2.2.1
theorem sc19 (t : Fin cfg0.N) : win0_7.index t 1 = t.val := (sched t).2.2.2.2.2.2.2.2.2.2.2.2.2.2.2.2.2.2.2.1
theorem sc20 (t : Fin cfg0.N) : win0_7.xsize (grid0.coords t) 0 = 16 := (sched t).2.2.2.2.2.2.2.2.2.2.2.2.2.2.2.2.2.2.2.2.1
theorem sc21 (t : Fin cfg0.N) : win0_7.xsize (grid0.coords t) 1 = win0_0.xsize (grid0.coords t) 0 := (sched t).2.2.2.2.2.2.2.2.2.2.2.2.2.2.2.2.2.2.2.2.2.1
theorem sc22 (t : Fin cfg0.N) : win0_1.index t 0 = 0 := (sched t).2.2.2.2.2.2.2.2.2.2.2.2.2.2.2.2.2.2.2.2.2.2.1
theorem sc23 (t : Fin cfg0.N) : win0_1.index t 1 = 0 := (sched t).2.2.2.2.2.2.2.2.2.2.2.2.2.2.2.2.2.2.2.2.2.2.2.1
theorem sc24 (t : Fin cfg0.N) : win0_2.index t 0 = 0 := (sched t).2.2.2.2.2.2.2.2.2.2.2.2.2.2.2.2.2.2.2.2.2.2.2.2.1
theorem sc25 (t : Fin cfg0.N) : win0_2.index t 1 = 0 := (sched t).2.2.2.2.2.2.2.2.2.2.2.2.2.2.2.2.2.2.2.2.2.2.2.2.2.1
theorem sc26 (t : Fin cfg0.N) : win0_3.index t 0 = 0 := (sched t).2.2.2.2.2.2.2.2.2.2.2.2.2.2.2.2.2.2.2.2.2.2.2.2.2.2.1
theorem sc27 (t : Fin cfg0.N) : win0_3.index t 1 = 0 := (sched t).2.2.2.2.2.2.2.2.2.2.2.2.2.2.2.2.2.2.2.2.2.2.2.2.2.2.2

/-- How many rows of the adjacency block at point t lie inside the matrix (256, or 16 at the last point). -/
abbrev nv (t : Fin cfg0.N) : Nat := win0_0.xsize (grid0.coords t) 0

theorem row_lt (t : Fin cfg0.N) (q : Fin 256) (hq : q.val < nv t) : t.val * 256 + q.val < 10000 := by
  have h : t.val * 256 + nv t ≤ 10000 := sc3 t
  omega

/-- The row of the matrix that row q of the block at point t is. -/
def rowOf (t : Fin cfg0.N) (q : Fin 256) (hq : q.val < nv t) : Fin 10000 := ⟨t.val * 256 + q.val, row_lt t q hq⟩

/-! ## The whole-array windows -/

theorem iblk1_at (c : Dev nD) (t : Fin cfg0.N) (y : S10000x128.Idx) : iblk m c 1 t y = xA m c y := by
  show V m c main_arg0 (((cfg0.win 1).blk t).view.emb y) = _
  rw [V_main_arg0]
  refine congrArg _ (funext fun a => Fin.ext ?_)
  match a with
  | ⟨0, _⟩ => show win0_1.index t 0 * 10000 + 1 * (y 0).val = (y 0).val; rw [sc22 t]; omega
  | ⟨1, _⟩ => show win0_1.index t 1 * 128 + 1 * (y 1).val = (y 1).val; rw [sc23 t]; omega

theorem iblk2_at (c : Dev nD) (t : Fin cfg0.N) (y : S128x32.Idx) : iblk m c 2 t y = V m c main_v0 y := by
  show V m c main_v0 (((cfg0.win 2).blk t).view.emb y) = _
  refine congrArg _ (funext fun a => Fin.ext ?_)
  match a with
  | ⟨0, _⟩ => show win0_2.index t 0 * 128 + 1 * (y 0).val = (y 0).val; rw [sc24 t]; omega
  | ⟨1, _⟩ => show win0_2.index t 1 * 32 + 1 * (y 1).val = (y 1).val; rw [sc25 t]; omega

theorem iblk3_at (c : Dev nD) (t : Fin cfg0.N) (y : S32x1.Idx) : iblk m c 3 t y = V m c main_v2 y := by
  show V m c main_v2 (((cfg0.win 3).blk t).view.emb y) = _
  refine congrArg _ (funext fun a => Fin.ext ?_)
  match a with
  | ⟨0, _⟩ => show win0_3.index t 0 * 32 + 1 * (y 0).val = (y 0).val; rw [sc26 t]; omega
  | ⟨1, _⟩ => show win0_3.index t 1 * 1 + 1 * (y 1).val = (y 1).val; rw [sc27 t]; omega

/-! ## The two overhanging input windows, on the part inside the array -/

set_option maxHeartbeats 4000000 in
/-- The index, inside the adjacency window's moved part at point t, of row q and column k. -/
def idxA (t : Fin cfg0.N) (q : Fin 256) (hq : q.val < win0_0.xsize (grid0.coords t) 0) (k : Fin 10000)
    (hk : k.val < win0_0.xsize (grid0.coords t) 1) : (win0_0.xblock (grid0.coords t)).Idx :=
  fun a => match a with | ⟨0, _⟩ => ⟨q.val, hq⟩ | ⟨1, _⟩ => ⟨k.val, hk⟩

set_option maxHeartbeats 4000000 in
/-- The index, inside the noise window's moved part at point t, of row r and column q. -/
def idxE (t : Fin cfg0.N) (r : Fin 16) (hr : r.val < win0_4.xsize (grid0.coords t) 0) (q : Fin 256)
    (hq : q.val < win0_4.xsize (grid0.coords t) 1) : (win0_4.xblock (grid0.coords t)).Idx :=
  fun a => match a with | ⟨0, _⟩ => ⟨r.val, hr⟩ | ⟨1, _⟩ => ⟨q.val, hq⟩

set_option maxHeartbeats 1000000 in
/-- Row q of the adjacency buffer at point t, for q inside the matrix, is row 256·t + q of the matrix,
    whatever fills the rest of the buffer. -/
theorem adj_row (c : Dev nD) (t : Fin cfg0.N) (d : Vec Ideal S256x10000 .f32) (q : Fin 256) (hq : q.val < nv t) (k : Fin 10000) :
    win0_0.fill (grid0.coords t) d (iblk m c 0 t) (ix2 q k) = adjA m c (ix2 (rowOf t q hq) k) := by
  have hk : k.val < win0_0.xsize (grid0.coords t) 1 := by rw [sc2 t]; exact k.isLt
  have hj : win0_0.xinj (grid0.coords t) (idxA t q hq k hk) = ix2 q k :=
    funext fun a => Fin.ext (by match a with | ⟨0, _⟩ => rfl | ⟨1, _⟩ => rfl)
  rw [← hj, win0_0.fill_xinj]
  show V m c main_arg1 ((win0_0.blk t).view.emb (idxA t q hq k hk)) = _
  rw [V_main_arg1]
  refine congrArg _ (funext fun a => Fin.ext ?_)
  match a with
  | ⟨0, _⟩ => show win0_0.index t 0 * 256 + 1 * q.val = t.val * 256 + q.val; rw [sc0 t]; omega
  | ⟨1, _⟩ => show win0_0.index t 1 * 10000 + 1 * k.val = k.val; rw [sc1 t]; omega

set_option maxHeartbeats 1000000 in
/-- Column q of the noise buffer at point t, for q inside the array, is column 256·t + q of the transposed
    noise: eps(256·t + q, r). -/
theorem eps_col (c : Dev nD) (t : Fin cfg0.N) (d : Vec Ideal S16x256 .f32) (r : Fin 16) (q : Fin 256) (hq : q.val < nv t) :
    win0_4.fill (grid0.coords t) d (iblk m c 4 t) (ix2 r q) = epsA m c (ix2 (rowOf t q hq) r) := by
  have hr : r.val < win0_4.xsize (grid0.coords t) 0 := by rw [sc8 t]; exact r.isLt
  have hq' : q.val < win0_4.xsize (grid0.coords t) 1 := by rw [sc9 t]; exact hq
  have hj : win0_4.xinj (grid0.coords t) (idxE t r hr q hq') = ix2 r q :=
    funext fun a => Fin.ext (by match a with | ⟨0, _⟩ => rfl | ⟨1, _⟩ => rfl)
  rw [← hj, win0_4.fill_xinj]
  show V m c main_v3 ((win0_4.blk t).view.emb (idxE t r hr q hq')) = _
  rw [← epsT_at m c r (rowOf t q hq)]
  refine congrArg _ (funext fun a => Fin.ext ?_)
  match a with
  | ⟨0, _⟩ => show win0_4.index t 0 * 16 + 1 * r.val = r.val; rw [sc6 t]; omega
  | ⟨1, _⟩ => show win0_4.index t 1 * 256 + 1 * q.val = t.val * 256 + q.val; rw [sc7 t]; omega

end Cert.KernelIdeal.Val

end
-- ==== Proof.PayAt.lean ====
/-
  The kernel body's payloads read at an index, over the extended reals.
-/
import proofs.«158584_g73332271612656_cont_9to1c4b_773_29_alg».proof.Proof.Gen.KernelIdeal.Skeleton
import proofs.«158584_g73332271612656_cont_9to1c4b_773_29_alg».proof.Proof.Halves
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Idealize.ShloMosaic Idealize.ShloMosaic.TcCoe Idealize.ShloMosaic.ValueIdx
open Cert.KernelIdeal Cert.KernelIdeal.Gen

/-- The word 0x3F000000 (sign 0, exponent 126, fraction 0) is one half. -/
theorem half_word : Ideal.ofBits .f32 0x3F000000#32 = ((1 / 2 : ℝ) : EReal) := by
  simp [Ideal.ofBits, Ideal.ieee]
  rw [← EReal.coe_mul]
  norm_num

/-! ## The first product: X · W -/

/-- The left operand's free axis carries the result's row coordinate. -/
theorem xw_lhs_free (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide),
    dif_pos (show (0 : Fin S10000x128.rank) ∈ dot_S10000x128_S128x32_S10000x32_1_0_0_1_n_n.lhsNonContracting by decide)]
  rfl
/-- The left operand's contracted axis carries the contraction coordinate. -/
theorem xw_lhs_contr (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
/-- The right operand's contracted axis carries the contraction coordinate. -/
theorem xw_rhs_contr (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
/-- The right operand's free axis carries the result's column coordinate. -/
theorem xw_rhs_free (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide),
    dif_pos (show (1 : Fin S128x32.rank) ∈ dot_S10000x128_S128x32_S10000x32_1_0_0_1_n_n.rhsNonContracting by decide)]
  rfl

/-- The first product, rows of X against columns of W: at (k, j) the sum over the 128 features. -/
theorem hfeat_at (X : Vec Ideal S10000x128 .f32) (W : Vec Ideal S128x32 .f32) (k : Fin 10000) (j : Fin 32) :
    k0_pay1 (F := Ideal) X W (ix2 k j) = ∑ f : Fin 128, X (ix2 k f) * W (ix2 f j) := by
  unfold k0_pay1
  rw [shapeCast_self, shapeCast_self]
  simp only [matmul]
  rw [Ideal.matmul_constant_zero_apply,
    ← Equiv.sum_comp (contrEquiv1 dot_S10000x128_S128x32_S10000x32_1_0_0_1_n_n 128 rfl rfl).symm]
  refine Finset.sum_congr rfl fun f _ => ?_
  have hf := contrEquiv1_symm_val dot_S10000x128_S128x32_S10000x32_1_0_0_1_n_n 128 rfl rfl f
  have el : dot_S10000x128_S128x32_S10000x32_1_0_0_1_n_n.lhsIdx (ix2 k j) ((contrEquiv1 dot_S10000x128_S128x32_S10000x32_1_0_0_1_n_n 128 rfl rfl).symm f) = ix2 k f :=
    funext fun a => Fin.ext (by
      match a with
      | ⟨0, _⟩ => exact xw_lhs_free _ _
      | ⟨1, _⟩ => exact (xw_lhs_contr _ _).trans hf)
  have er : dot_S10000x128_S128x32_S10000x32_1_0_0_1_n_n.rhsIdx (ix2 k j) ((contrEquiv1 dot_S10000x128_S128x32_S10000x32_1_0_0_1_n_n 128 rfl rfl).symm f) = ix2 f j :=
    funext fun a => Fin.ext (by
      match a with
      | ⟨0, _⟩ => exact (xw_rhs_contr _ _).trans hf
      | ⟨1, _⟩ => exact xw_rhs_free _ _)
  rw [el, er]

/-! ## The second product: Hᵀ · Aᵀ, the bias column, and the rectifier -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's free axis carries the result's row coordinate. -/
theorem ha_lhs_free (i : S32x256.Idx) (q : dot_S10000x32_S256x10000_S32x256_0_1_1_0_n_n.contr.Idx) :
    (dot_S10000x32_S256x10000_S32x256_0_1_1_0_n_n.lhsIdx i q 1).val = (i 0).val := by
  unfold DotDims.lhsIdx
  rw [dif_neg (show ¬(1 : Fin S10000x32.rank) ∈ dot_S10000x32_S256x10000_S32x256_0_1_1_0_n_n.lhsBatch by decide),
    dif_pos (show (1 : Fin S10000x32.rank) ∈ dot_S10000x32_S256x10000_S32x256_0_1_1_0_n_n.lhsNonContracting by decide)]
  rfl
/-- The left operand's contracted axis carries the contraction coordinate. -/
theorem ha_lhs_contr (i : S32x256.Idx) (q : dot_S10000x32_S256x10000_S32x256_0_1_1_0_n_n.contr.Idx) :
    (dot_S10000x32_S256x10000_S32x256_0_1_1_0_n_n.lhsIdx i q 0).val = (q ⟨0, by decide⟩).val :=
  dot_S10000x32_S256x10000_S32x256_0_1_1_0_n_n.lhsIdx_val_of_single rfl i q
/-- The right operand's contracted axis carries the contraction coordinate. -/
theorem ha_rhs_contr (i : S32x256.Idx) (q : dot_S10000x32_S256x10000_S32x256_0_1_1_0_n_n.contr.Idx) :
    (dot_S10000x32_S256x10000_S32x256_0_1_1_0_n_n.rhsIdx i q 1).val = (q ⟨0, by decide⟩).val :=
  dot_S10000x32_S256x10000_S32x256_0_1_1_0_n_n.rhsIdx_val_of_single rfl i q
/-- The right operand's free axis carries the result's column coordinate. -/
theorem ha_rhs_free (i : S32x256.Idx) (q : dot_S10000x32_S256x10000_S32x256_0_1_1_0_n_n.contr.Idx) :
    (dot_S10000x32_S256x10000_S32x256_0_1_1_0_n_n.rhsIdx i q 0).val = (i 1).val := by
  unfold DotDims.rhsIdx
  rw [dif_neg (show ¬(0 : Fin S256x10000.rank) ∈ dot_S10000x32_S256x10000_S32x256_0_1_1_0_n_n.rhsBatch by decide),
    dif_pos (show (0 : Fin S256x10000.rank) ∈ dot_S10000x32_S256x10000_S32x256_0_1_1_0_n_n.rhsNonContracting by decide)]
  rfl

/-- The second product contracts H's rows with A's columns: at (r, q) the sum over the 10000 nodes of H(k, r) · A(q, k). -/
theorem agg_at (H : Vec Ideal S10000x32 .f32) (A : Vec Ideal S256x10000 .f32) (r : Fin 32) (q : Fin 256) :
    FloatOps.matmul (F := Ideal) (φ₁ := .f32) (φ₂ := .f32) dot_S10000x32_S256x10000_S32x256_0_1_1_0_n_n none H A (constant (F := Ideal) S32x256 .f32 0x00000000#32) (ix2 r q)
      = ∑ k : Fin 10000, H (ix2 k r) * A (ix2 q k) := by
  rw [Ideal.matmul_constant_zero_apply,
    ← Equiv.sum_comp (contrEquiv1 dot_S10000x32_S256x10000_S32x256_0_1_1_0_n_n 10000 rfl rfl).symm]
  refine Finset.sum_congr rfl fun k _ => ?_
  have hk := contrEquiv1_symm_val dot_S10000x32_S256x10000_S32x256_0_1_1_0_n_n 10000 rfl rfl k
  have el : dot_S10000x32_S256x10000_S32x256_0_1_1_0_n_n.lhsIdx (ix2 r q) ((contrEquiv1 dot_S10000x32_S256x10000_S32x256_0_1_1_0_n_n 10000 rfl rfl).symm k) = ix2 k r :=
    funext fun a => Fin.ext (by
      match a with
      | ⟨0, _⟩ => exact (ha_lhs_contr _ _).trans hk
      | ⟨1, _⟩ => exact ha_lhs_free _ _)
  have er : dot_S10000x32_S256x10000_S32x256_0_1_1_0_n_n.rhsIdx (ix2 r q) ((contrEquiv1 dot_S10000x32_S256x10000_S32x256_0_1_1_0_n_n 10000 rfl rfl).symm k) = ix2 q k :=
    funext fun a => Fin.ext (by
      match a with
      | ⟨0, _⟩ => exact ha_rhs_free _ _
      | ⟨1, _⟩ => exact (ha_rhs_contr _ _).trans hk)
  rw [el, er]

/-- The 32 stacked rows before the split: the aggregated product plus the bias of the row, rectified. -/
theorem pay2_at (H : Vec Ideal S10000x32 .f32) (A : Vec Ideal S256x10000 .f32) (b : Vec Ideal S32x1 .f32)
    (r : Fin 32) (q : Fin 256) :
    k0_pay2 (F := Ideal) H A b (ix2 r q)
      = max ((∑ k : Fin 10000, H (ix2 k r) * A (ix2 q k)) + b (ix2 r (0 : Fin 1))) 0 := by
  unfold k0_pay2
  rw [shapeCast_self, maximumf_apply, addf_apply, broadcast_apply, broadcastTo_a1_ab_apply]
  simp only [matmul]
  rw [agg_at]
  show max _ (Ideal.ofBits .f32 0x00000000#32) = _
  rw [Ideal.ofBits_zero_f32]

/-! ## The two halves, and the sample -/

/-- The first sixteen rows. -/
theorem pay3_at (H : Vec Ideal S10000x32 .f32) (A : Vec Ideal S256x10000 .f32) (b : Vec Ideal S32x1 .f32)
    (r : Fin 16) (q : Fin 256) :
    k0_pay3 (F := Ideal) H A b (ix2 r q) = k0_pay2 (F := Ideal) H A b (ix2 (lo r) q) := by
  unfold k0_pay3
  exact slice2_axis0_apply 0 _ slices_S32x256_o0_0_S16x256 r q (lo r) (by show r.val = 0 + r.val; omega)

/-- The exponential of half of the last sixteen rows. -/
theorem pay4_at (H : Vec Ideal S10000x32 .f32) (A : Vec Ideal S256x10000 .f32) (b : Vec Ideal S32x1 .f32)
    (r : Fin 16) (q : Fin 256) :
    k0_pay4 (F := Ideal) H A b (ix2 r q)
      = Ideal.exp (((1 / 2 : ℝ) : EReal) * k0_pay2 (F := Ideal) H A b (ix2 (hi r) q)) := by
  unfold k0_pay4
  show Ideal.exp (Ideal.ofBits .f32 0x3F000000#32
      * extractStridedSlice S16x256 ![16, 0] (k0_pay2 (F := Ideal) H A b) slices_S32x256_o16_0_S16x256 (ix2 r q)) = _
  rw [half_word, slice2_axis0_apply 16 _ slices_S32x256_o16_0_S16x256 r q (hi r)
    (by show r.val + 16 = 16 + r.val; omega)]

/-- The sample: the first half plus the second half's exponential times the noise. -/
theorem pay5_at (H : Vec Ideal S10000x32 .f32) (A : Vec Ideal S256x10000 .f32) (b : Vec Ideal S32x1 .f32)
    (E : Vec Ideal S16x256 .f32) (r : Fin 16) (q : Fin 256) :
    k0_pay5 (F := Ideal) H A b E (ix2 r q)
      = k0_pay3 (F := Ideal) H A b (ix2 r q) + k0_pay4 (F := Ideal) H A b (ix2 r q) * E (ix2 r q) := by
  unfold k0_pay5
  rw [shapeCast_self]
  rfl

end Cert.KernelIdeal.PayAt

end
-- ==== Proof.Spec.lean ====
/-
  The mathematics both programs compute, stated once over the extended reals, index by index.

  With H = x·W (the hidden features, [10000,16]) the graph-convolution pre-activation at node i and
  feature j is  Σ_k adj(i,k)·H(k,j) + b(j);  it is rectified (max with 0).  mu is that quantity for
  (W1, b1);  var is that quantity for (W2, b2);  std = sqrt(exp var);  z = mu + std·eps.
-/
import Idealize.ShloMosaic.PureOps.Ideal
import Idealize.ShloMosaic.Lib.ValueIdx

noncomputable section

open scoped BigOperators

namespace Cert.GcnSpec

open Idealize.ShloMosaic Idealize.ShloMosaic.ValueIdx

/-- An [a,b] matrix of extended reals. -/
abbrev Mat (a b : Nat) : Type := (⟨2, ![a, b]⟩ : Shape).Idx → EReal
/-- A vector of length a. -/
abbrev Vc (a : Nat) : Type := (⟨1, ![a]⟩ : Shape).Idx → EReal

/-- The hidden features (x·W)(k,j) = Σ_f x(k,f)·W(f,j). -/
def hid (x : Mat 10000 128) (W : Mat 128 16) (k : Fin 10000) (j : Fin 16) : EReal :=
  ∑ f : Fin 128, x (ix2 k f) * W (ix2 f j)

/-- The aggregated pre-activation Σ_k adj(i,k)·(x·W)(k,j) + b(j). -/
def pre (x : Mat 10000 128) (adj : Mat 10000 10000) (W : Mat 128 16) (b : Vc 16) (i : Fin 10000) (j : Fin 16) : EReal :=
  (∑ k : Fin 10000, adj (ix2 i k) * hid x W k j) + b (ix1 j)

/-- The rectified layer max(pre, 0). -/
def act (x : Mat 10000 128) (adj : Mat 10000 10000) (W : Mat 128 16) (b : Vc 16) (i : Fin 10000) (j : Fin 16) : EReal :=
  max (pre x adj W b i j) 0

/-- mu = relu(adj·(x·W1) + b1). -/
def muG (x : Mat 10000 128) (adj : Mat 10000 10000) (W1 : Mat 128 16) (b1 : Vc 16) : Mat 10000 16 :=
  fun p => act x adj W1 b1 (p 0) (p 1)

/-- std = sqrt(exp(relu(adj·(x·W2) + b2))). -/
def stdG (x : Mat 10000 128) (adj : Mat 10000 10000) (W2 : Mat 128 16) (b2 : Vc 16) : Mat 10000 16 :=
  fun p => Ideal.sqrt (Ideal.exp (act x adj W2 b2 (p 0) (p 1)))

/-- z = mu + std·eps. -/
def zG (x : Mat 10000 128) (adj : Mat 10000 10000) (W1 : Mat 128 16) (b1 : Vc 16) (W2 : Mat 128 16) (b2 : Vc 16)
    (eps : Mat 10000 16) : Mat 10000 16 :=
  fun p => muG x adj W1 b1 p + stdG x adj W2 b2 p * eps p

/-- The square root of an exponential is the exponential of half the exponent, at every extended real
    (both sides are +∞ at +∞ and 0 at −∞; on the reals it is exp(r/2) = sqrt(exp r)). -/
theorem sqrt_exp (v : EReal) : Ideal.sqrt (Ideal.exp v) = Ideal.exp (((1 / 2 : ℝ) : EReal) * v) := by
  induction v using EReal.rec with
  | bot =>
    rw [EReal.coe_mul_bot_of_pos (by norm_num : (0 : ℝ) < 1 / 2), Ideal.exp_bot,
      show (0 : EReal) = ((0 : ℝ) : EReal) from rfl, Ideal.sqrt_coe, if_neg (lt_irrefl _), Real.sqrt_zero]
  | top =>
    rw [EReal.coe_mul_top_of_pos (by norm_num : (0 : ℝ) < 1 / 2)]
    simp
  | coe r =>
    rw [← EReal.coe_mul, Ideal.exp_coe, Ideal.exp_coe, Ideal.sqrt_coe, if_neg (not_lt.mpr (Real.exp_pos r).le)]
    congr 1
    rw [show (1 / 2 : ℝ) * r = r / 2 by ring, Real.exp_half]

end Cert.GcnSpec

end
-- ==== Proof.IdealMath.lean ====
/-
  One entry of each of the body's three results is the specification's entry.

  Let H hold the hidden features in its column R (R = r for the mu layer, 16 + r for the variance
  layer), let row q of the adjacency buffer be row i of the adjacency matrix, let the bias column hold
  b(r) at R and the noise buffer eps(i, r) at (r, q).  Then the stacked intermediate at (R, q) is
  max(Σ_k H(k,R)·A(q,k) + b, 0) = max(Σ_k adj(i,k)·(x·W)(k,r) + b(r), 0): the same sum with each
  product's factors exchanged.  mu is that entry of the first half; std is exp of half that entry of
  the second half, which is sqrt(exp ·); z is mu + std·eps.  In particular an entry depends on the
  adjacency buffer through its row q only, and on the noise buffer through its entry (r, q) only.
-/
import proofs.«158584_g73332271612656_cont_9to1c4b_773_29_alg».proof.Proof.PayAt
import proofs.«158584_g73332271612656_cont_9to1c4b_773_29_alg».proof.Proof.Spec

noncomputable section

open scoped BigOperators

namespace Cert.KernelIdeal.Math

open Idealize.ShloMosaic Idealize.ShloMosaic.TcCoe Idealize.ShloMosaic.ValueIdx
open Cert.KernelIdeal Cert.KernelIdeal.Gen Cert.KernelIdeal.PayAt Cert.GcnSpec

variable (x : Mat 10000 128) (adj : Mat 10000 10000)

/-- The stacked intermediate at (R, q) is the rectified layer at (i, r). -/
theorem stack_entry (W : Mat 128 16) (b : Vc 16) (H : Vec Ideal S10000x32 .f32) (A : Vec Ideal S256x10000 .f32)
    (bb : Vec Ideal S32x1 .f32) (R : Fin 32) (r : Fin 16) (q : Fin 256) (i : Fin 10000)
    (hH : ∀ k, H (ix2 k R) = hid x W k r) (hA : ∀ k, A (ix2 q k) = adj (ix2 i k))
    (hb : bb (ix2 R (0 : Fin 1)) = b (ix1 r)) :
    k0_pay2 (F := Ideal) H A bb (ix2 R q) = act x adj W b i r := by
  rw [pay2_at, hb]
  unfold act pre
  congr 2
  refine Finset.sum_congr rfl fun k _ => ?_
  rw [hH, hA, mul_comm]

/-- The intermediate's entry depends on the adjacency buffer through its row q only. -/
theorem stack_congr (H : Vec Ideal S10000x32 .f32) (A A' : Vec Ideal S256x10000 .f32) (bb : Vec Ideal S32x1 .f32)
    (R : Fin 32) (q : Fin 256) (h : ∀ k, A (ix2 q k) = A' (ix2 q k)) :
    k0_pay2 (F := Ideal) H A bb (ix2 R q) = k0_pay2 (F := Ideal) H A' bb (ix2 R q) := by
  rw [pay2_at, pay2_at]
  congr 2
  exact Finset.sum_congr rfl fun k _ => by rw [h]

theorem mu_congr (H : Vec Ideal S10000x32 .f32) (A A' : Vec Ideal S256x10000 .f32) (bb : Vec Ideal S32x1 .f32)
    (r : Fin 16) (q : Fin 256) (h : ∀ k, A (ix2 q k) = A' (ix2 q k)) :
    k0_pay3 (F := Ideal) H A bb (ix2 r q) = k0_pay3 (F := Ideal) H A' bb (ix2 r q) := by
  rw [pay3_at, pay3_at, stack_congr H A A' bb _ q h]

theorem std_congr (H : Vec Ideal S10000x32 .f32) (A A' : Vec Ideal S256x10000 .f32) (bb : Vec Ideal S32x1 .f32)
    (r : Fin 16) (q : Fin 256) (h : ∀ k, A (ix2 q k) = A' (ix2 q k)) :
    k0_pay4 (F := Ideal) H A bb (ix2 r q) = k0_pay4 (F := Ideal) H A' bb (ix2 r q) := by
  rw [pay4_at, pay4_at, stack_congr H A A' bb _ q h]

theorem z_congr (H : Vec Ideal S10000x32 .f32) (A A' : Vec Ideal S256x10000 .f32) (bb : Vec Ideal S32x1 .f32)
    (E E' : Vec Ideal S16x256 .f32) (r : Fin 16) (q : Fin 256) (h : ∀ k, A (ix2 q k) = A' (ix2 q k))
    (hE : E (ix2 r q) = E' (ix2 r q)) :
    k0_pay5 (F := Ideal) H A bb E (ix2 r q) = k0_pay5 (F := Ideal) H A' bb E' (ix2 r q) := by
  rw [pay5_at, pay5_at, mu_congr H A A' bb r q h, std_congr H A A' bb r q h, hE]

variable (W1 : Mat 128 16) (b1 : Vc 16) (W2 : Mat 128 16) (b2 : Vc 16) (eps : Mat 10000 16)

/-- mu's entry. -/
theorem mu_entry (H : Vec Ideal S10000x32 .f32) (A : Vec Ideal S256x10000 .f32) (bb : Vec Ideal S32x1 .f32)
    (r : Fin 16) (q : Fin 256) (i : Fin 10000)
    (hH : ∀ k, H (ix2 k (lo r)) = hid x W1 k r) (hA : ∀ k, A (ix2 q k) = adj (ix2 i k))
    (hb : bb (ix2 (lo r) (0 : Fin 1)) = b1 (ix1 r)) :
    k0_pay3 (F := Ideal) H A bb (ix2 r q) = muG x adj W1 b1 (ix2 i r) := by
  rw [pay3_at, stack_entry x adj W1 b1 H A bb (lo r) r q i hH hA hb]
  rfl

/-- std's entry: exp of half the rectified variance layer is the square root of its exponential. -/
theorem std_entry (H : Vec Ideal S10000x32 .f32) (A : Vec Ideal S256x10000 .f32) (bb : Vec Ideal S32x1 .f32)
    (r : Fin 16) (q : Fin 256) (i : Fin 10000)
    (hH : ∀ k, H (ix2 k (hi r)) = hid x W2 k r) (hA : ∀ k, A (ix2 q k) = adj (ix2 i k))
    (hb : bb (ix2 (hi r) (0 : Fin 1)) = b2 (ix1 r)) :
    k0_pay4 (F := Ideal) H A bb (ix2 r q) = stdG x adj W2 b2 (ix2 i r) := by
  rw [pay4_at, stack_entry x adj W2 b2 H A bb (hi r) r q i hH hA hb, ← sqrt_exp]
  rfl

/-- z's entry. -/
theorem z_entry (H : Vec Ideal S10000x32 .f32) (A : Vec Ideal S256x10000 .f32) (bb : Vec Ideal S32x1 .f32)
    (E : Vec Ideal S16x256 .f32) (r : Fin 16) (q : Fin 256) (i : Fin 10000)
    (hH1 : ∀ k, H (ix2 k (lo r)) = hid x W1 k r) (hH2 : ∀ k, H (ix2 k (hi r)) = hid x W2 k r)
    (hA : ∀ k, A (ix2 q k) = adj (ix2 i k))
    (hb1 : bb (ix2 (lo r) (0 : Fin 1)) = b1 (ix1 r)) (hb2 : bb (ix2 (hi r) (0 : Fin 1)) = b2 (ix1 r))
    (hE : E (ix2 r q) = eps (ix2 i r)) :
    k0_pay5 (F := Ideal) H A bb E (ix2 r q) = zG x adj W1 b1 W2 b2 eps (ix2 i r) := by
  rw [pay5_at, mu_entry x adj W1 b1 H A bb r q i hH1 hA hb1, std_entry x adj W2 b2 H A bb r q i hH2 hA hb2, hE]
  rfl

end Cert.KernelIdeal.Math

end
-- ==== Proof.IdealValue.lean ====
/-
  The three result arrays after the region, and the three results of the program.

  The kernel writes its results transposed, [16,10000], a block of 256 columns per grid point.  What
  point t writes back of each — the payload's columns that lie inside the array — is that block of the
  transposed specification: entry (r, q) of the block is the specification at node 256·t + q and
  feature r.  The blocks cover the arrays, so each array ends at the transposed specification, and the
  closing transposes turn them into z, mu and std.  The same entry-by-entry reading shows that those
  columns do not depend on what fills the overhanging buffers past the arrays' ends.
-/
import proofs.«158584_g73332271612656_cont_9to1c4b_773_29_alg».proof.Proof.IdealBlocks
import proofs.«158584_g73332271612656_cont_9to1c4b_773_29_alg».proof.Proof.IdealMath

set_option maxRecDepth 16384

noncomputable section

namespace Cert.KernelIdeal.Val

open Cert.KernelIdeal Cert.KernelIdeal.Gen Cert.KernelIdeal.Body Cert.KernelIdeal.PayAt Cert.KernelIdeal.Math Cert.GcnSpec
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ)

/-! ## The transposed specification -/

def zT (c : Dev nD) : S16x10000.Idx → EReal :=
  fun p => zG (xA m c) (adjA m c) (W1A m c) (b1A m c) (W2A m c) (b2A m c) (epsA m c) (ix2 (p 1) (p 0))
def muT (c : Dev nD) : S16x10000.Idx → EReal := fun p => muG (xA m c) (adjA m c) (W1A m c) (b1A m c) (ix2 (p 1) (p 0))
def sdT (c : Dev nD) : S16x10000.Idx → EReal := fun p => stdG (xA m c) (adjA m c) (W2A m c) (b2A m c) (ix2 (p 1) (p 0))

/-! ## The scratch holds the hidden features of both layers, side by side -/

theorem hfeat_lo (c : Dev nD) (k : Fin 10000) (r : Fin 16) :
    hfeat (F := Ideal) m c (ix2 k (lo r)) = hid (xA m c) (W1A m c) k r := by
  show k0_pay1 (F := Ideal) (iblk m c 1 t0) (iblk m c 2 t0) (ix2 k (lo r)) = _
  rw [hfeat_at]; unfold hid
  exact Finset.sum_congr rfl fun f _ => by rw [iblk1_at, iblk2_at, W_lo]

theorem hfeat_hi (c : Dev nD) (k : Fin 10000) (r : Fin 16) :
    hfeat (F := Ideal) m c (ix2 k (hi r)) = hid (xA m c) (W2A m c) k r := by
  show k0_pay1 (F := Ideal) (iblk m c 1 t0) (iblk m c 2 t0) (ix2 k (hi r)) = _
  rw [hfeat_at]; unfold hid
  exact Finset.sum_congr rfl fun f _ => by rw [iblk1_at, iblk2_at, W_hi]

theorem bias_lo (c : Dev nD) (t : Fin cfg0.N) (r : Fin 16) : iblk m c 3 t (ix2 (lo r) (0 : Fin 1)) = b1A m c (ix1 r) := by
  rw [iblk3_at]; exact b_lo m c r
theorem bias_hi (c : Dev nD) (t : Fin cfg0.N) (r : Fin 16) : iblk m c 3 t (ix2 (hi r) (0 : Fin 1)) = b2A m c (ix1 r) := by
  rw [iblk3_at]; exact b_hi m c r

/-! ## The columns inside the arrays do not depend on the fillers -/

set_option maxHeartbeats 1000000 in
theorem cut_z (c : Dev nD) (t : Fin cfg0.N) (d0 : Vec Ideal S256x10000 .f32) (d4 : Vec Ideal S16x256 .f32) :
    win0_5.cut (grid0.coords t) (k0_pay5 (F := Ideal) (hfeat m c) (win0_0.fill (grid0.coords t) d0 (iblk m c 0 t)) (iblk m c 3 t) (win0_4.fill (grid0.coords t) d4 (iblk m c 4 t)))
      = win0_5.cut (grid0.coords t) (k0_pay5 (F := Ideal) (hfeat m c) (blk0 m c t) (iblk m c 3 t) (blk4 m c t)) := by
  funext j
  have h0 : (j 0).val < 16 := by
    have h : (j 0).val < win0_5.xsize (grid0.coords t) 0 := (j 0).isLt
    rwa [sc12 t] at h
  have h1 : (j 1).val < nv t := by
    have h : (j 1).val < win0_5.xsize (grid0.coords t) 1 := (j 1).isLt
    rwa [sc13 t] at h
  have h1' : (j 1).val < 256 := lt_of_lt_of_le h1 (sc4 t)
  have hx : win0_5.xinj (grid0.coords t) j = ix2 (⟨(j 0).val, h0⟩ : Fin 16) (⟨(j 1).val, h1'⟩ : Fin 256) :=
    funext fun a => Fin.ext (by match a with | ⟨0, _⟩ => rfl | ⟨1, _⟩ => rfl)
  show k0_pay5 (F := Ideal) _ _ _ _ (win0_5.xinj (grid0.coords t) j) = k0_pay5 (F := Ideal) _ _ _ _ (win0_5.xinj (grid0.coords t) j)
  rw [hx]
  exact z_congr _ _ _ _ _ _ _ _ (fun k => (adj_row m c t d0 _ h1 k).trans (adj_row m c t zfill _ h1 k).symm)
    ((eps_col m c t d4 _ _ h1).trans (eps_col m c t zfill _ _ h1).symm)

set_option maxHeartbeats 1000000 in
theorem cut_mu (c : Dev nD) (t : Fin cfg0.N) (d0 : Vec Ideal S256x10000 .f32) :
    win0_6.cut (grid0.coords t) (k0_pay3 (F := Ideal) (hfeat m c) (win0_0.fill (grid0.coords t) d0 (iblk m c 0 t)) (iblk m c 3 t))
      = win0_6.cut (grid0.coords t) (k0_pay3 (F := Ideal) (hfeat m c) (blk0 m c t) (iblk m c 3 t)) := by
  funext j
  have h0 : (j 0).val < 16 := by
    have h : (j 0).val < win0_6.xsize (grid0.coords t) 0 := (j 0).isLt
    rwa [sc16 t] at h
  have h1 : (j 1).val < nv t := by
    have h : (j 1).val < win0_6.xsize (grid0.coords t) 1 := (j 1).isLt
    rwa [sc17 t] at h
  have h1' : (j 1).val < 256 := lt_of_lt_of_le h1 (sc4 t)
  have hx : win0_6.xinj (grid0.coords t) j = ix2 (⟨(j 0).val, h0⟩ : Fin 16) (⟨(j 1).val, h1'⟩ : Fin 256) :=
    funext fun a => Fin.ext (by match a with | ⟨0, _⟩ => rfl | ⟨1, _⟩ => rfl)
  show k0_pay3 (F := Ideal) _ _ _ (win0_6.xinj (grid0.coords t) j) = k0_pay3 (F := Ideal) _ _ _ (win0_6.xinj (grid0.coords t) j)
  rw [hx]
  exact mu_congr _ _ _ _ _ _ (fun k => (adj_row m c t d0 _ h1 k).trans (adj_row m c t zfill _ h1 k).symm)

set_option maxHeartbeats 1000000 in
theorem cut_sd (c : Dev nD) (t : Fin cfg0.N) (d0 : Vec Ideal S256x10000 .f32) :
    win0_7.cut (grid0.coords t) (k0_pay4 (F := Ideal) (hfeat m c) (win0_0.fill (grid0.coords t) d0 (iblk m c 0 t)) (iblk m c 3 t))
      = win0_7.cut (grid0.coords t) (k0_pay4 (F := Ideal) (hfeat m c) (blk0 m c t) (iblk m c 3 t)) := by
  funext j
  have h0 : (j 0).val < 16 := by
    have h : (j 0).val < win0_7.xsize (grid0.coords t) 0 := (j 0).isLt
    rwa [sc20 t] at h
  have h1 : (j 1).val < nv t := by
    have h : (j 1).val < win0_7.xsize (grid0.coords t) 1 := (j 1).isLt
    rwa [sc21 t] at h
  have h1' : (j 1).val < 256 := lt_of_lt_of_le h1 (sc4 t)
  have hx : win0_7.xinj (grid0.coords t) j = ix2 (⟨(j 0).val, h0⟩ : Fin 16) (⟨(j 1).val, h1'⟩ : Fin 256) :=
    funext fun a => Fin.ext (by match a with | ⟨0, _⟩ => rfl | ⟨1, _⟩ => rfl)
  show k0_pay4 (F := Ideal) _ _ _ (win0_7.xinj (grid0.coords t) j) = k0_pay4 (F := Ideal) _ _ _ (win0_7.xinj (grid0.coords t) j)
  rw [hx]
  exact std_congr _ _ _ _ _ _ (fun k => (adj_row m c t d0 _ h1 k).trans (adj_row m c t zfill _ h1 k).symm)

theorem cutInd (c : Dev nD) : CutInd (F := Ideal) m c := ⟨cut_z m c, cut_mu m c, cut_sd m c⟩

/-! ## What each point writes back is its block of the transposed specification -/

set_option maxHeartbeats 1000000 in
theorem flushed5 (c : Dev nD) (t : Fin cfg0.N) :
    (dats (F := Ideal) m 0 c).flushed 5 t = (win0_5.blk t).view.read (Elt Ideal) (zT m c) := by
  funext j
  have h0 : (j 0).val < 16 := by
    have h : (j 0).val < win0_5.xsize (grid0.coords t) 0 := (j 0).isLt
    rwa [sc12 t] at h
  have h1 : (j 1).val < nv t := by
    have h : (j 1).val < win0_5.xsize (grid0.coords t) 1 := (j 1).isLt
    rwa [sc13 t] at h
  have h1' : (j 1).val < 256 := lt_of_lt_of_le h1 (sc4 t)
  have hx : win0_5.xinj (grid0.coords t) j = ix2 (⟨(j 0).val, h0⟩ : Fin 16) (⟨(j 1).val, h1'⟩ : Fin 256) :=
    funext fun a => Fin.ext (by match a with | ⟨0, _⟩ => rfl | ⟨1, _⟩ => rfl)
  have he : (win0_5.blk t).view.emb j = ix2 (⟨(j 0).val, h0⟩ : Fin 16) (rowOf t ⟨(j 1).val, h1'⟩ h1) := funext fun a => Fin.ext (by
    match a with
    | ⟨0, _⟩ => show win0_5.index t 0 * 16 + 1 * (j 0).val = (j 0).val; rw [sc10 t]; omega
    | ⟨1, _⟩ => show win0_5.index t 1 * 256 + 1 * (j 1).val = t.val * 256 + (j 1).val; rw [sc11 t]; omega)
  show (dats (F := Ideal) m 0 c).after 5 t (win0_5.xinj (grid0.coords t) j) = zT m c ((win0_5.blk t).view.emb j)
  rw [after_5, hx, he]
  exact z_entry _ _ _ _ _ _ _ _ _ _ _ _ _ (rowOf t ⟨(j 1).val, h1'⟩ h1) (fun k => hfeat_lo m c k _) (fun k => hfeat_hi m c k _)
    (fun k => adj_row m c t zfill _ h1 k) (bias_lo m c t _) (bias_hi m c t _) (eps_col m c t zfill _ _ h1)

set_option maxHeartbeats 1000000 in
theorem flushed6 (c : Dev nD) (t : Fin cfg0.N) :
    (dats (F := Ideal) m 0 c).flushed 6 t = (win0_6.blk t).view.read (Elt Ideal) (muT m c) := by
  funext j
  have h0 : (j 0).val < 16 := by
    have h : (j 0).val < win0_6.xsize (grid0.coords t) 0 := (j 0).isLt
    rwa [sc16 t] at h
  have h1 : (j 1).val < nv t := by
    have h : (j 1).val < win0_6.xsize (grid0.coords t) 1 := (j 1).isLt
    rwa [sc17 t] at h
  have h1' : (j 1).val < 256 := lt_of_lt_of_le h1 (sc4 t)
  have hx : win0_6.xinj (grid0.coords t) j = ix2 (⟨(j 0).val, h0⟩ : Fin 16) (⟨(j 1).val, h1'⟩ : Fin 256) :=
    funext fun a => Fin.ext (by match a with | ⟨0, _⟩ => rfl | ⟨1, _⟩ => rfl)
  have he : (win0_6.blk t).view.emb j = ix2 (⟨(j 0).val, h0⟩ : Fin 16) (rowOf t ⟨(j 1).val, h1'⟩ h1) := funext fun a => Fin.ext (by
    match a with
    | ⟨0, _⟩ => show win0_6.index t 0 * 16 + 1 * (j 0).val = (j 0).val; rw [sc14 t]; omega
    | ⟨1, _⟩ => show win0_6.index t 1 * 256 + 1 * (j 1).val = t.val * 256 + (j 1).val; rw [sc15 t]; omega)
  show (dats (F := Ideal) m 0 c).after 6 t (win0_6.xinj (grid0.coords t) j) = muT m c ((win0_6.blk t).view.emb j)
  rw [after_6, hx, he]
  exact mu_entry _ _ _ _ _ _ _ _ _ (rowOf t ⟨(j 1).val, h1'⟩ h1) (fun k => hfeat_lo m c k _)
    (fun k => adj_row m c t zfill _ h1 k) (bias_lo m c t _)

set_option maxHeartbeats 1000000 in
theorem flushed7 (c : Dev nD) (t : Fin cfg0.N) :
    (dats (F := Ideal) m 0 c).flushed 7 t = (win0_7.blk t).view.read (Elt Ideal) (sdT m c) := by
  funext j
  have h0 : (j 0).val < 16 := by
    have h : (j 0).val < win0_7.xsize (grid0.coords t) 0 := (j 0).isLt
    rwa [sc20 t] at h
  have h1 : (j 1).val < nv t := by
    have h : (j 1).val < win0_7.xsize (grid0.coords t) 1 := (j 1).isLt
    rwa [sc21 t] at h
  have h1' : (j 1).val < 256 := lt_of_lt_of_le h1 (sc4 t)
  have hx : win0_7.xinj (grid0.coords t) j = ix2 (⟨(j 0).val, h0⟩ : Fin 16) (⟨(j 1).val, h1'⟩ : Fin 256) :=
    funext fun a => Fin.ext (by match a with | ⟨0, _⟩ => rfl | ⟨1, _⟩ => rfl)
  have he : (win0_7.blk t).view.emb j = ix2 (⟨(j 0).val, h0⟩ : Fin 16) (rowOf t ⟨(j 1).val, h1'⟩ h1) := funext fun a => Fin.ext (by
    match a with
    | ⟨0, _⟩ => show win0_7.index t 0 * 16 + 1 * (j 0).val = (j 0).val; rw [sc18 t]; omega
    | ⟨1, _⟩ => show win0_7.index t 1 * 256 + 1 * (j 1).val = t.val * 256 + (j 1).val; rw [sc19 t]; omega)
  show (dats (F := Ideal) m 0 c).after 7 t (win0_7.xinj (grid0.coords t) j) = sdT m c ((win0_7.blk t).view.emb j)
  rw [after_7, hx, he]
  exact std_entry _ _ _ _ _ _ _ _ _ (rowOf t ⟨(j 1).val, h1'⟩ h1) (fun k => hfeat_hi m c k _)
    (fun k => adj_row m c t zfill _ h1 k) (bias_hi m c t _)

/-! ## The blocks cover the arrays -/

/-- An index of result array 0 is in point t's block iff its column is one of the block's columns inside the array. -/
theorem mem_blk5 (t : Fin cfg0.N) (i : S16x10000.Idx) :
    i ∈ (win0_5.blk t).view.set ↔ t.val * 256 ≤ (i 1).val ∧ (i 1).val < t.val * 256 + nv t := by
  show i ∈ ((View.whole main_v4_0).slice (win0_5.rect t)).set ↔ _
  rw [View.set_slice_whole, Rect.mem_set_unit]
  constructor
  · intro h
    have h1 : win0_5.index t 1 * 256 ≤ (i 1).val ∧ (i 1).val < win0_5.index t 1 * 256 + win0_5.xsize (grid0.coords t) 1 := h 1
    rw [sc11 t, sc13 t] at h1; exact h1
  · intro h a
    match a with
    | ⟨0, _⟩ =>
      show win0_5.index t 0 * 16 ≤ (i 0).val ∧ (i 0).val < win0_5.index t 0 * 16 + win0_5.xsize (grid0.coords t) 0
      rw [sc10 t, sc12 t]
      have : (i 0).val < 16 := (i 0).isLt
      omega
    | ⟨1, _⟩ =>
      show win0_5.index t 1 * 256 ≤ (i 1).val ∧ (i 1).val < win0_5.index t 1 * 256 + win0_5.xsize (grid0.coords t) 1
      rw [sc11 t, sc13 t]; exact h

/-- Every index of result array 0 is in the block of the point its column falls in. -/
theorem cover5 (i : S16x10000.Idx) : ∃ t : Fin cfg0.N, (cfg0.win 5).flush t = true ∧ i ∈ ((cfg0.win 5).blk t).view.set := by
  have hi : (i 1).val < 10000 := (i 1).isLt
  obtain ⟨t, ht⟩ : ∃ t : Fin cfg0.N, t.val = (i 1).val / 256 :=
    ⟨⟨(i 1).val / 256, by have : cfg0.N = 40 := N_0; omega⟩, rfl⟩
  refine ⟨t, flush0_5 t, (mem_blk5 t i).mpr ?_⟩
  have hn : nv t = min 256 (10000 - t.val * 256) := sc5 t
  rw [hn, Nat.min_def]
  split <;> omega

/-- An index of result array 1 is in point t's block iff its column is one of the block's columns inside the array. -/
theorem mem_blk6 (t : Fin cfg0.N) (i : S16x10000.Idx) :
    i ∈ (win0_6.blk t).view.set ↔ t.val * 256 ≤ (i 1).val ∧ (i 1).val < t.val * 256 + nv t := by
  show i ∈ ((View.whole main_v4_1).slice (win0_6.rect t)).set ↔ _
  rw [View.set_slice_whole, Rect.mem_set_unit]
  constructor
  · intro h
    have h1 : win0_6.index t 1 * 256 ≤ (i 1).val ∧ (i 1).val < win0_6.index t 1 * 256 + win0_6.xsize (grid0.coords t) 1 := h 1
    rw [sc15 t, sc17 t] at h1; exact h1
  · intro h a
    match a with
    | ⟨0, _⟩ =>
      show win0_6.index t 0 * 16 ≤ (i 0).val ∧ (i 0).val < win0_6.index t 0 * 16 + win0_6.xsize (grid0.coords t) 0
      rw [sc14 t, sc16 t]
      have : (i 0).val < 16 := (i 0).isLt
      omega
    | ⟨1, _⟩ =>
      show win0_6.index t 1 * 256 ≤ (i 1).val ∧ (i 1).val < win0_6.index t 1 * 256 + win0_6.xsize (grid0.coords t) 1
      rw [sc15 t, sc17 t]; exact h

/-- Every index of result array 1 is in the block of the point its column falls in. -/
theorem cover6 (i : S16x10000.Idx) : ∃ t : Fin cfg0.N, (cfg0.win 6).flush t = true ∧ i ∈ ((cfg0.win 6).blk t).view.set := by
  have hi : (i 1).val < 10000 := (i 1).isLt
  obtain ⟨t, ht⟩ : ∃ t : Fin cfg0.N, t.val = (i 1).val / 256 :=
    ⟨⟨(i 1).val / 256, by have : cfg0.N = 40 := N_0; omega⟩, rfl⟩
  refine ⟨t, flush0_6 t, (mem_blk6 t i).mpr ?_⟩
  have hn : nv t = min 256 (10000 - t.val * 256) := sc5 t
  rw [hn, Nat.min_def]
  split <;> omega

/-- An index of result array 2 is in point t's block iff its column is one of the block's columns inside the array. -/
theorem mem_blk7 (t : Fin cfg0.N) (i : S16x10000.Idx) :
    i ∈ (win0_7.blk t).view.set ↔ t.val * 256 ≤ (i 1).val ∧ (i 1).val < t.val * 256 + nv t := by
  show i ∈ ((View.whole main_v4_2).slice (win0_7.rect t)).set ↔ _
  rw [View.set_slice_whole, Rect.mem_set_unit]
  constructor
  · intro h
    have h1 : win0_7.index t 1 * 256 ≤ (i 1).val ∧ (i 1).val < win0_7.index t 1 * 256 + win0_7.xsize (grid0.coords t) 1 := h 1
    rw [sc19 t, sc21 t] at h1; exact h1
  · intro h a
    match a with
    | ⟨0, _⟩ =>
      show win0_7.index t 0 * 16 ≤ (i 0).val ∧ (i 0).val < win0_7.index t 0 * 16 + win0_7.xsize (grid0.coords t) 0
      rw [sc18 t, sc20 t]
      have : (i 0).val < 16 := (i 0).isLt
      omega
    | ⟨1, _⟩ =>
      show win0_7.index t 1 * 256 ≤ (i 1).val ∧ (i 1).val < win0_7.index t 1 * 256 + win0_7.xsize (grid0.coords t) 1
      rw [sc19 t, sc21 t]; exact h

/-- Every index of result array 2 is in the block of the point its column falls in. -/
theorem cover7 (i : S16x10000.Idx) : ∃ t : Fin cfg0.N, (cfg0.win 7).flush t = true ∧ i ∈ ((cfg0.win 7).blk t).view.set := by
  have hi : (i 1).val < 10000 := (i 1).isLt
  obtain ⟨t, ht⟩ : ∃ t : Fin cfg0.N, t.val = (i 1).val / 256 :=
    ⟨⟨(i 1).val / 256, by have : cfg0.N = 40 := N_0; omega⟩, rfl⟩
  refine ⟨t, flush0_7 t, (mem_blk7 t i).mpr ?_⟩
  have hn : nv t = min 256 (10000 - t.val * 256) := sc5 t
  rw [hn, Nat.min_def]
  split <;> omega

/-! ## The three arrays after the region -/

theorem final5 (c : Dev nD) : (dats (F := Ideal) m 0 c).arrAt 5 cfg0.N = zT m c :=
  (dats (F := Ideal) m 0 c).arrAt_eq_of_cover 5 (zT m c) (fun t _ => flushed5 m c t) cover5
theorem final6 (c : Dev nD) : (dats (F := Ideal) m 0 c).arrAt 6 cfg0.N = muT m c :=
  (dats (F := Ideal) m 0 c).arrAt_eq_of_cover 6 (muT m c) (fun t _ => flushed6 m c t) cover6
theorem final7 (c : Dev nD) : (dats (F := Ideal) m 0 c).arrAt 7 cfg0.N = sdT m c :=
  (dats (F := Ideal) m 0 c).arrAt_eq_of_cover 7 (sdT m c) (fun t _ => flushed7 m c t) cover7

end Cert.KernelIdeal.Val

end
-- ==== Proof.IdealFinal.lean ====
/-
  The kernel's run with its three results named by the specification.

  After the region the three arrays hold the transposed specification; each closing transpose reads its
  array at (r, i) for the result's entry (i, r), which is the specification's entry (i, r).
-/
import proofs.«158584_g73332271612656_cont_9to1c4b_773_29_alg».proof.Proof.IdealValue

set_option maxRecDepth 16384

noncomputable section

namespace Cert.KernelIdeal.Val

open Cert.KernelIdeal Cert.KernelIdeal.Gen Cert.KernelIdeal.Body Cert.KernelIdeal.PayAt Cert.KernelIdeal.Math Cert.GcnSpec
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ) (ρ : Dev nD → PrngReg)

/-- z: the closing transpose of the region's array. -/
theorem res_z (c : Dev nD) :
    Pipeline.afterTail₀ cfgs (dats (F := Ideal) m) 0 (V0 m) [hostOps1] c main_v5
      = zG (xA m c) (adjA m c) (W1A m c) (b1A m c) (W2A m c) (b2A m c) (epsA m c) := by
  unfold Pipeline.afterTail₀
  show StableHlo.after hostOps1 _ (Proc.devRef .tc main_v5) = _
  after_results
  rw [show Pipeline.withArrays (cfgs 0).spec c (V0 m c) (fun w => (dats (F := Ideal) m 0 c).arrAt w (cfgs 0).N) (Proc.devRef .tc main_v4_0) = zT m c from
    (Pipeline.withArrays_arr spec0 launch0.win.arr_inj c _ _ 5).trans (final5 m c)]
  funext p
  obtain ⟨i, r, rfl⟩ : ∃ (i : Fin 10000) (r : Fin 16), p = ix2 i r := ⟨p 0, p 1, eq_ix2 p⟩
  rw [transpose_ix2_apply]
  rfl

/-- mu: the closing transpose of the region's array. -/
theorem res_mu (c : Dev nD) :
    Pipeline.afterTail₀ cfgs (dats (F := Ideal) m) 0 (V0 m) [hostOps1] c main_v6
      = muG (xA m c) (adjA m c) (W1A m c) (b1A m c) := by
  unfold Pipeline.afterTail₀
  show StableHlo.after hostOps1 _ (Proc.devRef .tc main_v6) = _
  after_results
  rw [show Pipeline.withArrays (cfgs 0).spec c (V0 m c) (fun w => (dats (F := Ideal) m 0 c).arrAt w (cfgs 0).N) (Proc.devRef .tc main_v4_1) = muT m c from
    (Pipeline.withArrays_arr spec0 launch0.win.arr_inj c _ _ 6).trans (final6 m c)]
  funext p
  obtain ⟨i, r, rfl⟩ : ∃ (i : Fin 10000) (r : Fin 16), p = ix2 i r := ⟨p 0, p 1, eq_ix2 p⟩
  rw [transpose_ix2_apply]
  rfl

/-- std: the closing transpose of the region's array. -/
theorem res_sd (c : Dev nD) :
    Pipeline.afterTail₀ cfgs (dats (F := Ideal) m) 0 (V0 m) [hostOps1] c main_v7
      = stdG (xA m c) (adjA m c) (W2A m c) (b2A m c) := by
  unfold Pipeline.afterTail₀
  show StableHlo.after hostOps1 _ (Proc.devRef .tc main_v7) = _
  after_results
  rw [show Pipeline.withArrays (cfgs 0).spec c (V0 m c) (fun w => (dats (F := Ideal) m 0 c).arrAt w (cfgs 0).N) (Proc.devRef .tc main_v4_2) = sdT m c from
    (Pipeline.withArrays_arr spec0 launch0.win.arr_inj c _ _ 7).trans (final7 m c)]
  funext p
  obtain ⟨i, r, rfl⟩ : ∃ (i : Fin 10000) (r : Fin 16), p = ix2 i r := ⟨p 0, p 1, eq_ix2 p⟩
  rw [transpose_ix2_apply]
  rfl

/-- Every weakly fair execution of the idealized kernel terminates with z, mu and std — the
    specification's functions of the seven argument arrays — in its three result buffers, and the
    arguments unchanged. -/
theorem kernel_run :
    θ_run defs (onTc (τ := τ) (main (F := Ideal))) ⟨m, fun _ => 0, ρ⟩ (fun r => ∀ c : Dev nD,
      r.2.mem ((c.tc : Thread nD τ).loc main_v5) = zG (xA m c) (adjA m c) (W1A m c) (b1A m c) (W2A m c) (b2A m c) (epsA m c)
      ∧ r.2.mem ((c.tc : Thread nD τ).loc main_v6) = muG (xA m c) (adjA m c) (W1A m c) (b1A m c)
      ∧ r.2.mem ((c.tc : Thread nD τ).loc main_v7) = stdG (xA m c) (adjA m c) (W2A m c) (b2A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v5 (Pipeline.mem_restRefs_of main_v5 (by decide) (by decide))).trans (res_z m c),
     ((h c).2 main_v6 (Pipeline.mem_restRefs_of main_v6 (by decide) (by decide))).trans (res_mu m c),
     ((h c).2 main_v7 (Pipeline.mem_restRefs_of main_v7 (by decide) (by decide))).trans (res_sd m c),
     ((h c).1 1).trans (((dats (F := Ideal) m 0 c).arrAt_in 1 rfl _).trans ((A_eq m c 1).trans (V_main_arg0 m c))),
     ((h c).1 0).trans (((dats (F := Ideal) m 0 c).arrAt_in 0 rfl _).trans ((A_eq m c 0).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_full m ρ (cutInd m))

end Cert.KernelIdeal.Val

end
-- ==== Proof.RefValue.lean ====
/-
  The reference program's three results, read index by index, are the specification's z, mu and std.
-/
import proofs.«158584_g73332271612656_cont_9to1c4b_773_29_alg».proof.Proof.Gen.ReferenceIdeal.Read
import proofs.«158584_g73332271612656_cont_9to1c4b_773_29_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.GcnSpec Cert.ReferenceIdeal.Read
open scoped BigOperators

/-! ## Where each operation reads its operands

A product x·W at (k, j) reads row k of x and column j of W; the aggregation adj·H at (p, q) reads row p of adj
and column q of H; the bias, a vector of length 16, is first laid out as a [1,16] row and then repeated down the
10000 rows, so at (p, q) it is read at q. -/

theorem lidx_v0 (k : Fin 10000) (j : Fin 16) (f : Fin 128) : lidx_main_v0 (ix2 k j) f = ix2 k f :=
  funext fun a => Fin.ext (by match a with | ⟨0, _⟩ => rfl | ⟨1, _⟩ => rfl)
theorem ridx_v0 (k : Fin 10000) (j : Fin 16) (f : Fin 128) : ridx_main_v0 (ix2 k j) f = ix2 f j :=
  funext fun a => Fin.ext (by match a with | ⟨0, _⟩ => rfl | ⟨1, _⟩ => rfl)
theorem lidx_v1 (p : Fin 10000) (q : Fin 16) (k : Fin 10000) : lidx_main_v1 (ix2 p q) k = ix2 p k :=
  funext fun a => Fin.ext (by match a with | ⟨0, _⟩ => rfl | ⟨1, _⟩ => rfl)
theorem ridx_v1 (p : Fin 10000) (q : Fin 16) (k : Fin 10000) : ridx_main_v1 (ix2 p q) k = ix2 k q :=
  funext fun a => Fin.ext (by match a with | ⟨0, _⟩ => rfl | ⟨1, _⟩ => rfl)
theorem idx_bias (p : Fin 10000) (q : Fin 16) : idx_main_v2 (idx_main_v3 (ix2 p q)) = ix1 q :=
  funext fun a => Fin.ext (by match a with | ⟨0, _⟩ => rfl)

/-- The first product of a layer is the hidden features: (x·W)(k,j) = Σ_f x(k,f)·W(f,j). -/
theorem hidden_eq (x : Mat 10000 128) (W : Mat 128 16) (k : Fin 10000) (j : Fin 16) :
    val_main_v0 (F := Ideal) x W (ix2 k j) = hid x W k j := by
  rw [val_main_v0_apply]
  unfold hid
  refine Finset.sum_congr rfl fun f _ => ?_
  rw [lidx_v0, ridx_v0]

/-- The layer before rectification: Σ_k adj(p,k)·(x·W)(k,q) + b(q). -/
theorem pre_eq (x : Mat 10000 128) (adj : Mat 10000 10000) (W : Mat 128 16) (b : Vc 16) (p : Fin 10000) (q : Fin 16) :
    val_main_v4 (F := Ideal) x adj W b (ix2 p q) = pre x adj W b p q := by
  rw [val_main_v4_apply, val_main_v1_apply, val_main_v3_apply, val_main_v2_apply, idx_bias]
  unfold pre
  rw [Ideal.addf_def]
  congr 1
  refine Finset.sum_congr rfl fun k _ => ?_
  rw [lidx_v1, ridx_v1, hidden_eq]

/-- The rectified layer: the maximum of the pre-activation and the zero the program broadcasts. -/
theorem act_eq (x : Mat 10000 128) (adj : Mat 10000 10000) (W : Mat 128 16) (b : Vc 16) (p : Fin 10000) (q : Fin 16) :
    val_main_v5 (F := Ideal) x adj W b (ix2 p q) = act x adj W b p q := by
  rw [val_main_v5_apply, val_main_call0_v0_apply, val_main_call0_cst_apply, pre_eq, Ideal.maximumf_def, Ideal.ofBits_def,
    Ideal.ofBits_zero_f32]
  rfl

/-- mu, as the program computes it, is the specification's. -/
theorem mu_eq (x : Mat 10000 128) (adj : Mat 10000 10000) (W1 : Mat 128 16) (b1 : Vc 16) :
    val_main_v5 (F := Ideal) x adj W1 b1 = muG x adj W1 b1 := by
  funext i
  obtain ⟨p, q, rfl⟩ : ∃ (p : Fin 10000) (q : Fin 16), i = ix2 p q := ⟨i 0, i 1, eq_ix2 i⟩
  exact act_eq x adj W1 b1 p q

/-- The second layer is the first layer's operations, on (W2, b2) in place of (W1, b1). -/
theorem layer2_eq (x : Mat 10000 128) (adj : Mat 10000 10000) (W : Mat 128 16) (b : Vc 16) :
    val_main_v11 (F := Ideal) x adj W b = val_main_v5 (F := Ideal) x adj W b := rfl

/-- std, as the program computes it: the square root of the exponential of the second rectified layer. -/
theorem std_eq (x : Mat 10000 128) (adj : Mat 10000 10000) (W2 : Mat 128 16) (b2 : Vc 16) :
    val_main_v13 (F := Ideal) x adj W2 b2 = stdG x adj W2 b2 := by
  funext i
  obtain ⟨p, q, rfl⟩ : ∃ (p : Fin 10000) (q : Fin 16), i = ix2 p q := ⟨i 0, i 1, eq_ix2 i⟩
  rw [val_main_v13_apply, val_main_v12_apply, Ideal.hostUnary_sqrt_def, Ideal.hostUnary_exp_def, layer2_eq, act_eq]
  rfl

/-- z = mu + std·eps, as the program computes it. -/
theorem z_eq (x : Mat 10000 128) (adj : Mat 10000 10000) (W1 : Mat 128 16) (b1 : Vc 16) (W2 : Mat 128 16) (b2 : Vc 16)
    (eps : Mat 10000 16) :
    val_main_v15 (F := Ideal) x adj W1 b1 W2 b2 eps = zG x adj W1 b1 W2 b2 eps := by
  funext i
  rw [val_main_v15_apply, val_main_v14_apply, Ideal.addf_def, Ideal.mulf_def, mu_eq, std_eq]
  rfl

/-! ## The reference's run, with its three results named by the specification -/

/-- Every weakly fair execution of the reference terminates with z, mu and std — the specification's functions of
    the seven argument arrays — in its three result buffers, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v15) = zG (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_v5) = muG (m' ((c.tc : Thread nD τ).loc main_arg0)) (m' ((c.tc : Thread nD τ).loc main_arg1)) (m' ((c.tc : Thread nD τ).loc main_arg2)) (m' ((c.tc : Thread nD τ).loc main_arg3))
      ∧ r.2.mem ((c.tc : Thread nD τ).loc main_v13) = stdG (m' ((c.tc : Thread nD τ).loc main_arg0)) (m' ((c.tc : Thread nD τ).loc main_arg1)) (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) :=
  (θ_run defs _ _).mono (fun _ h c =>
      ⟨(h c).1.trans ((val_main_v15_eq _ _ _ _ _ _ _).trans (z_eq _ _ _ _ _ _ _)),
        (h c).2.1.trans ((val_main_v5_eq _ _ _ _).trans (mu_eq _ _ _ _)),
        (h c).2.2.1.trans ((val_main_v13_eq _ _ _ _).trans (std_eq _ _ _ _)),
        (h c).2.2.2⟩)
    (Cert.ReferenceIdeal.Value.run (F := Ideal) m' ρ')

end Cert.ReferenceIdeal.RefValue

end
-- ==== Proof.lean ====
/-
  A two-layer graph convolution with a variational head, as one pipelined kernel against its plain
  reference: with H = x·W the layer is relu(adj·H + b); mu is the layer of (W1, b1), var the layer of
  (W2, b2), std = sqrt(exp var) and z = mu + std·eps.

  The kernel streams the adjacency matrix once, 256 rows per grid point. At the first point it forms
  x·[W1|W2] in a scratch it keeps; at every point it multiplies the adjacency block against it in
  transposed form, adds the stacked bias, rectifies, takes exp of half the second half, and writes
  256-column blocks of the three transposed results; three transposes close the program. Over the
  extended reals both programs compute the same sums (each product's two factors exchanged), exp of a
  half is the square root of exp at every extended real, and a column of a result block reads one row of
  the adjacency block, so the rows past the matrix's end in the last, overhanging block — whose contents
  nothing names — reach no entry that is written back. No finiteness of the inputs is used.

  The frames (both kernels run to the end without a fault and leave their arguments unchanged) come
  from the body's triple on arbitrary buffer contents and the scratch carried as the region's invariant;
  for the word-level kernel the three outputs are left unconstrained, since there nothing is known of how
  a matrix product's columns depend on the other operand's rows. The idealization rewrote nothing.
-/
import proofs.«158584_g73332271612656_cont_9to1c4b_773_29_alg».proof.Defs
import proofs.«158584_g73332271612656_cont_9to1c4b_773_29_alg».proof.Proof.Gen.Kernel
import proofs.«158584_g73332271612656_cont_9to1c4b_773_29_alg».proof.Proof.Gen.KernelIdeal
import proofs.«158584_g73332271612656_cont_9to1c4b_773_29_alg».proof.Proof.Gen.ReferenceIdeal
import proofs.«158584_g73332271612656_cont_9to1c4b_773_29_alg».proof.Proof.Gen.Pre_finite_inputs
import proofs.«158584_g73332271612656_cont_9to1c4b_773_29_alg».proof.Proof.BitsRuns
import proofs.«158584_g73332271612656_cont_9to1c4b_773_29_alg».proof.Proof.IdealFinal
import proofs.«158584_g73332271612656_cont_9to1c4b_773_29_alg».proof.Proof.RefValue
import Idealize.ShloMosaic.Adequacy
import Idealize.ShloMosaic.Init

noncomputable section

namespace Cert.Proof

open Idealize.ShloMosaic Idealize.SL.Sem

/-- The word-level kernel's frame: the run with the three outputs left unconstrained. -/
theorem frame_k : Cert.frame_Kernel := fun m ρ _ => Cert.Kernel.Body.frame (F := Bits) m ρ

/-- The idealized kernel's frame: the same run at the extended reals. -/
theorem frame_ki : Cert.frame_KernelIdeal := fun m ρ _ => Cert.KernelIdeal.Body.frame (F := Ideal) m ρ

/-- The reference's frame: its run with the results dropped. -/
theorem frame_ri : Cert.frame_ReferenceIdeal := fun m ρ _ =>
  (θ_run Cert.ReferenceIdeal.defs _ _).mono (fun _ h c => (h c).2.2.2) (Cert.ReferenceIdeal.RefValue.ref_run m ρ)

/-- The idealization rewrote no operation. -/
theorem preserves : Cert.preserves_Kernel_KernelIdeal := trivial

/-- Both programs end with z, mu and std, the same functions of arguments that agree. -/
theorem algebraic : Cert.algebraic_KernelIdeal_ReferenceIdeal := by
  intro m ρ m' ρ' _ hagree
  refine ⟨fun c => Cert.GcnSpec.zG (Cert.KernelIdeal.Val.xA m c) (Cert.KernelIdeal.Val.adjA m c) (Cert.KernelIdeal.Val.W1A m c) (Cert.KernelIdeal.Val.b1A m c) (Cert.KernelIdeal.Val.W2A m c) (Cert.KernelIdeal.Val.b2A m c) (Cert.KernelIdeal.Val.epsA m c), fun c => Cert.GcnSpec.muG (Cert.KernelIdeal.Val.xA m c) (Cert.KernelIdeal.Val.adjA m c) (Cert.KernelIdeal.Val.W1A m c) (Cert.KernelIdeal.Val.b1A m c), fun c => Cert.GcnSpec.stdG (Cert.KernelIdeal.Val.xA m c) (Cert.KernelIdeal.Val.adjA m c) (Cert.KernelIdeal.Val.W2A m c) (Cert.KernelIdeal.Val.b2A m c), Cert.KernelIdeal.Val.kernel_run m ρ, ?_⟩
  refine (θ_run Cert.ReferenceIdeal.defs _ _).mono (fun r h c => ?_) (Cert.ReferenceIdeal.RefValue.ref_run m' ρ')
  obtain ⟨hz, hmu, hsd, hargs⟩ := h c
  obtain ⟨a0, a1, a2, a3, a4, a5, a6⟩ := hagree c
  refine ⟨?_, ?_, ?_, hargs⟩
  · rw [hz, a0, a1, a2, a3, a4, a5, a6]
  · rw [hmu, a0, a1, a2, a3]
  · rw [hsd, a0, a1, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
